-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel

variable [Facts]

def fn {F : FTy → Type} [FloatOps F] (main_arg0 : FVec F S8000000x4 .f32) (main_arg1 : FVec F S8000000x4 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x4 : Shape := ⟨2, ![8000000, 4]⟩
abbrev S1x4 : Shape := ⟨2, ![1, 4]⟩
abbrev S1x1 : Shape := ⟨2, ![1, 1]⟩
abbrev S_ : Shape := ⟨0, ![]⟩
abbrev S200000x4 : Shape := ⟨2, ![200000, 4]⟩
abbrev S200000x1 : Shape := ⟨2, ![200000, 1]⟩
abbrev S200000 : Shape := ⟨1, ![200000]⟩
abbrev S1x200000x4 : Shape := ⟨3, ![1, 200000, 4]⟩
abbrev S1 : Shape := ⟨1, ![1]⟩
abbrev S1x1x1 : Shape := ⟨3, ![1, 1, 1]⟩
abbrev S1x200000 : Shape := ⟨2, ![1, 200000]⟩
abbrev S4 : Shape := ⟨1, ![4]⟩

abbrev nBuf : Space → Nat
  | .hbm => 30
  | .vmem => 5
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S1x4, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .local _ .vmem, ⟨0, _⟩ => ⟨S200000x4, .f32⟩
  | .local _ .vmem, ⟨1, _⟩ => ⟨S200000x4, .f32⟩
  | .local _ .vmem, ⟨2, _⟩ => ⟨S200000x4, .f32⟩
  | .local _ .vmem, ⟨3, _⟩ => ⟨S200000x4, .f32⟩
  | .local _ .vmem, ⟨4, _⟩ => ⟨S1x4, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_cst : Ref sig .tc := ⟨.hbm, 11, rfl⟩
abbrev main_call0_v9 : Ref sig .tc := ⟨.hbm, 12, rfl⟩
abbrev main_call0_cst_0 : Ref sig .tc := ⟨.hbm, 13, rfl⟩
abbrev main_call0_v10 : Ref sig .tc := ⟨.hbm, 14, rfl⟩
abbrev main_call0_v11 : Ref sig .tc := ⟨.hbm, 15, rfl⟩
abbrev main_call0_cst_1 : Ref sig .tc := ⟨.hbm, 16, rfl⟩
abbrev main_call0_v12 : Ref sig .tc := ⟨.hbm, 17, rfl⟩
abbrev main_call0_v13 : Ref sig .tc := ⟨.hbm, 18, rfl⟩
abbrev main_call0_cst_2 : Ref sig .tc := ⟨.hbm, 19, rfl⟩
abbrev main_call0_v14 : Ref sig .tc := ⟨.hbm, 20, rfl⟩
abbrev main_call0_v15 : Ref sig .tc := ⟨.hbm, 21, rfl⟩
abbrev main_call0_cst_3 : Ref sig .tc := ⟨.hbm, 22, rfl⟩
abbrev main_call0_call0_v0 : Ref sig .tc := ⟨.hbm, 23, rfl⟩
abbrev main_call0_v16 : Ref sig .tc := ⟨.hbm, 24, rfl⟩
abbrev main_call0_v17 : Ref sig .tc := ⟨.hbm, 25, rfl⟩
abbrev main_call0_cst_4 : Ref sig .tc := ⟨.hbm, 26, rfl⟩
abbrev main_call0_v18 : Ref sig .tc := ⟨.hbm, 27, rfl⟩
abbrev main_call0_v19 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  inb_S1x4_S1x4_0_0 : ∀ a, (![0, 0] : Fin 2 → Nat) a + S1x4.size a ≤ S1x4.size a
  h_S1x4 : 0 < S1x4.numel
  inb_S200000x4_S200000x4_0_0 : ∀ a, (![0, 0] : Fin 2 → Nat) a + S200000x4.size a ≤ S200000x4.size a
  h_S200000x4 : 0 < S200000x4.numel
  slices_S200000x4_o0_0_S200000x1 : S200000x4.Slices ![0, 0] S200000x1
  shapeCasts_S200000x1_S200000 : S200000x1.ShapeCasts S200000
  slices_S200000x4_o0_2_S200000x1 : S200000x4.Slices ![0, 2] S200000x1
  slices_S200000x4_o0_1_S200000x1 : S200000x4.Slices ![0, 1] S200000x1
  slices_S200000x4_o0_3_S200000x1 : S200000x4.Slices ![0, 3] S200000x1
  natLt_1_32 : 1 < 32
  shapeCasts_S200000_S200000x1 : S200000.ShapeCasts S200000x1
  broadcasts_S200000x1_S200000x4 : S200000x1.Broadcasts S200000x4
  shapeCasts_S200000x4_S1x200000x4 : S200000x4.ShapeCasts S1x200000x4
  reduces_S1x200000x4_S1 : S1x200000x4.Reduces [1, 2] S1
  shapeCasts_S1_S1x1x1 : S1.ShapeCasts S1x1x1
  inpos_S1x1x1_p0_0_0 : ∀ a, (![0, 0, 0] : Fin 3 → Nat) a < S1x1x1.size a
  shapeCasts_S200000_S1x200000 : S200000.ShapeCasts S1x200000
  reduces_S1x200000_S1 : S1x200000.Reduces [1] S1
  shapeCasts_S1_S1x1 : S1.ShapeCasts S1x1
  inpos_S1x1_p0_0 : ∀ a, (![0, 0] : Fin 2 → Nat) a < S1x1.size a
  concatenates_S1_S1_S1_S1_S4_d0 : Shape.Concatenates [S1, S1, S1, S1] S4 0
  shapeCasts_S1x4_S1x4 : S1x4.ShapeCasts S1x4
  shapeCasts_S4_S1x4 : S4.ShapeCasts S1x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200000x4.size a ≤ S8000000x4.size a
  hwx0_0 : ∀ i : grid0.Coords, EltTy.bits .f32 = 32 ∨ (Rect.block (s := S8000000x4) S200000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200000x4.size a ≤ S8000000x4.size a
  hwx0_1 : ∀ i : grid0.Coords, EltTy.bits .f32 = 32 ∨ (Rect.block (s := S8000000x4) S200000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)

variable [Facts₀]

abbrev win0_0 : Pipeline.Window sig grid0 :=
  Pipeline.Window.ofSpec (Memref.whole main_arg0) S200000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x1 : Shape := ⟨2, ![8000000, 1]⟩
abbrev S8000000 : Shape := ⟨1, ![8000000]⟩
abbrev S_ : Shape := ⟨0, ![]⟩

abbrev nBuf : Space → Nat
  | .hbm => 146
  | .vmem => 0
  | .smem => 0
  | _ => 0

abbrev hbmTy0_0 (i : Nat) : BufTy := match i % 128 with
  | 0 => ⟨S8000000x4, .f32⟩
  | 1 => ⟨S8000000x4, .f32⟩
  | 2 => ⟨S8000000x1, .f32⟩
  | 3 => ⟨S8000000, .f32⟩
  | 4 => ⟨S8000000x1, .f32⟩
  | 5 => ⟨S8000000, .f32⟩
  | 6 => ⟨S_, .f32⟩
  | 7 => ⟨S8000000, .f32⟩
  | 8 => ⟨S8000000, .f32⟩
  | 9 => ⟨S8000000, .f32⟩
  | 10 => ⟨S8000000x1, .f32⟩
  | 11 => ⟨S8000000, .f32⟩
  | 12 => ⟨S8000000x1, .f32⟩
  | 13 => ⟨S8000000, .f32⟩
  | 14 => ⟨S_, .f32⟩
  | 15 => ⟨S8000000, .f32⟩
  | 16 => ⟨S8000000, .f32⟩
  | 17 => ⟨S8000000, .f32⟩
  | 18 => ⟨S8000000x1, .f32⟩
  | 19 => ⟨S8000000, .f32⟩
  | 20 => ⟨S8000000x1, .f32⟩
  | 21 => ⟨S8000000, .f32⟩
  | 22 => ⟨S_, .f32⟩
  | 23 => ⟨S8000000, .f32⟩
  | 24 => ⟨S8000000, .f32⟩
  | 25 => ⟨S8000000, .f32⟩
  | 26 => ⟨S8000000x1, .f32⟩
  | 27 => ⟨S8000000, .f32⟩
  | 28 => ⟨S8000000x1, .f32⟩
  | 29 => ⟨S8000000, .f32⟩
  | 30 => ⟨S_, .f32⟩
  | 31 => ⟨S8000000, .f32⟩
  | 32 => ⟨S8000000, .f32⟩
  | 33 => ⟨S8000000, .f32⟩
  | 34 => ⟨S8000000x1, .f32⟩
  | 35 => ⟨S8000000, .f32⟩
  | 36 => ⟨S8000000x1, .f32⟩
  | 37 => ⟨S8000000, .f32⟩
  | 38 => ⟨S_, .f32⟩
  | 39 => ⟨S8000000, .f32⟩
  | 40 => ⟨S8000000, .f32⟩
  | 41 => ⟨S8000000, .f32⟩
  | 42 => ⟨S_, .f32⟩
  | 43 => ⟨S8000000, .f32⟩
  | 44 => ⟨S8000000, .f32⟩
  | 45 => ⟨S8000000x1, .f32⟩
  | 46 => ⟨S8000000, .f32⟩
  | 47 => ⟨S8000000x1, .f32⟩
  | 48 => ⟨S8000000, .f32⟩
  | 49 => ⟨S_, .f32⟩
  | 50 => ⟨S8000000, .f32⟩
  | 51 => ⟨S8000000, .f32⟩
  | 52 => ⟨S8000000, .f32⟩
  | 53 => ⟨S_, .f32⟩
  | 54 => ⟨S8000000, .f32⟩
  | 55 => ⟨S8000000, .f32⟩
  | 56 => ⟨S8000000x1, .f32⟩
  | 57 => ⟨S8000000, .f32⟩
  | 58 => ⟨S8000000x1, .f32⟩
  | 59 => ⟨S8000000, .f32⟩
  | 60 => ⟨S_, .f32⟩
  | 61 => ⟨S8000000, .f32⟩
  | 62 => ⟨S8000000, .f32⟩
  | 63 => ⟨S8000000, .f32⟩
  | 64 => ⟨S_, .f32⟩
  | 65 => ⟨S8000000, .f32⟩
  | 66 => ⟨S8000000, .f32⟩
  | 67 => ⟨S8000000x1, .f32⟩
  | 68 => ⟨S8000000, .f32⟩
  | 69 => ⟨S8000000x1, .f32⟩
  | 70 => ⟨S8000000, .f32⟩
  | 71 => ⟨S_, .f32⟩
  | 72 => ⟨S8000000, .f32⟩
  | 73 => ⟨S8000000, .f32⟩
  | 74 => ⟨S8000000, .f32⟩
  | 75 => ⟨S_, .f32⟩
  | 76 => ⟨S8000000, .f32⟩
  | 77 => ⟨S8000000, .f32⟩
  | 78 => ⟨S8000000, .f32⟩
  | 79 => ⟨S8000000, .f32⟩
  | 80 => ⟨S8000000, .f32⟩
  | 81 => ⟨S8000000, .f32⟩
  | 82 => ⟨S8000000, .i1⟩
  | 83 => ⟨S8000000, .i1⟩
  | 84 => ⟨S8000000, .i1⟩
  | 85 => ⟨S8000000, .i1⟩
  | 86 => ⟨S8000000, .i32⟩
  | 87 => ⟨S_, .i32⟩
  | 88 => ⟨S_, .i32⟩
  | 89 => ⟨S8000000, .i32⟩
  | 90 => ⟨S_, .i32⟩
  | 91 => ⟨S_, .i32⟩
  | 92 => ⟨S8000000x4, .f32⟩
  | 93 => ⟨S8000000x4, .f32⟩
  | 94 => ⟨S8000000x1, .i1⟩
  | 95 => ⟨S8000000x1, .f32⟩
  | 96 => ⟨S8000000x4, .f32⟩
  | 97 => ⟨S8000000x4, .f32⟩
  | 98 => ⟨S_, .f32⟩
  | 99 => ⟨S_, .f32⟩
  | 100 => ⟨S_, .i32⟩
  | 101 => ⟨S_, .i32⟩
  | 102 => ⟨S_, .i32⟩
  | 103 => ⟨S_, .i32⟩
  | 104 => ⟨S_, .f32⟩
  | 105 => ⟨S_, .f32⟩
  | 106 => ⟨S8000000x1, .f32⟩
  | 107 => ⟨S8000000, .f32⟩
  | 108 => ⟨S8000000x1, .f32⟩
  | 109 => ⟨S8000000, .f32⟩
  | 110 => ⟨S8000000, .f32⟩
  | 111 => ⟨S8000000x1, .f32⟩
  | 112 => ⟨S8000000, .f32⟩
  | 113 => ⟨S8000000x1, .f32⟩
  | 114 => ⟨S8000000, .f32⟩
  | 115 => ⟨S8000000, .f32⟩
  | 116 => ⟨S8000000, .f32⟩
  | 117 => ⟨S8000000, .f32⟩
  | 118 => ⟨S8000000, .f32⟩
  | 119 => ⟨S8000000, .f32⟩
  | 120 => ⟨S8000000, .f32⟩
  | 121 => ⟨S_, .f32⟩
  | 122 => ⟨S8000000, .f32⟩
  | 123 => ⟨S8000000, .f32⟩
  | 124 => ⟨S8000000, .f32⟩
  | 125 => ⟨S_, .f32⟩
  | 126 => ⟨S_, .f32⟩
  | 127 => ⟨S8000000, .f32⟩
  | _ => ⟨S8000000x4, .f32⟩

abbrev hbmTy0_1 (i : Nat) : BufTy := match i % 128 with
  | 0 => ⟨S8000000, .f32⟩
  | 1 => ⟨S_, .f32⟩
  | 2 => ⟨S_, .f32⟩
  | 3 => ⟨S_, .i32⟩
  | 4 => ⟨S_, .i32⟩
  | 5 => ⟨S_, .f32⟩
  | 6 => ⟨S_, .f32⟩
  | 7 => ⟨S_, .i32⟩
  | 8 => ⟨S_, .i1⟩
  | 9 => ⟨S_, .f32⟩
  | 10 => ⟨S_, .f32⟩
  | 11 => ⟨S_, .f32⟩
  | 12 => ⟨S_, .f32⟩
  | 13 => ⟨S_, .f32⟩
  | 14 => ⟨S_, .i32⟩
  | 15 => ⟨S_, .i1⟩
  | 16 => ⟨S_, .f32⟩
  | 17 => ⟨S_, .f32⟩
  | _ => ⟨S8000000x4, .f32⟩

abbrev hbmTy (i : Nat) : BufTy := match i / 128 with
  | 0 => hbmTy0_0 i
  | 1 => hbmTy0_1 i
  | _ => ⟨S8000000x4, .f32⟩

abbrev bufTy : (tb : Table) → Fin (tcTables nBuf tb) → BufTy
  | .hbm, ⟨i, _⟩ => hbmTy i
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_8 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_9 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_10 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c : Ref sig .tc := ⟨.hbm, 87, rfl⟩
abbrev main_v73 : Ref sig .tc := ⟨.hbm, 88, rfl⟩
abbrev main_v74 : Ref sig .tc := ⟨.hbm, 89, rfl⟩
abbrev main_c_11 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_12 : Ref sig .tc := ⟨.hbm, 98, rfl⟩
abbrev main_v82 : Ref sig .tc := ⟨.hbm, 99, rfl⟩
abbrev main_c_13 : Ref sig .tc := ⟨.hbm, 100, rfl⟩
abbrev main_v83 : Ref sig .tc := ⟨.hbm, 101, rfl⟩
abbrev main_c_14 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_15 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_16 : Ref sig .tc := ⟨.hbm, 125, rfl⟩
abbrev main_call0_v0 : Ref sig .tc := ⟨.hbm, 126, rfl⟩
abbrev main_call0_v1 : Ref sig .tc := ⟨.hbm, 127, rfl⟩
abbrev main_v105 : Ref sig .tc := ⟨.hbm, 128, rfl⟩
abbrev main_cst_17 : Ref sig .tc := ⟨.hbm, 129, rfl⟩
abbrev main_v106 : Ref sig .tc := ⟨.hbm, 130, rfl⟩
abbrev main_c_18 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_c_19 : Ref sig .tc := ⟨.hbm, 135, rfl⟩
abbrev main_v110 : Ref sig .tc := ⟨.hbm, 136, rfl⟩
abbrev main_v111 : Ref sig .tc := ⟨.hbm, 137, rfl⟩
abbrev main_cst_20 : Ref sig .tc := ⟨.hbm, 138, rfl⟩
abbrev main_call1_v0 : Ref sig .tc := ⟨.hbm, 139, rfl⟩
abbrev main_v112 : Ref sig .tc := ⟨.hbm, 140, rfl⟩
abbrev main_v113 : Ref sig .tc := ⟨.hbm, 141, rfl⟩
abbrev main_c_21 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩

abbrev nD : Nat := 1
abbrev τ : Topo := Topo.v7x

variable {F : FTy → Type} [FloatOps F]

class Facts₀ : Prop where
  slices_S8000000x4_S8000000x1_0_0 : S8000000x4.Slices ![0, 0] S8000000x1
  shapeCasts_S8000000x1_S8000000 : S8000000x1.ShapeCasts S8000000
  slices_S8000000x4_S8000000x1_0_2 : S8000000x4.Slices ![0, 2] S8000000x1
  bcast_S_S8000000 : S_.BroadcastsInDim S8000000 (![] : Fin 0 → Fin S8000000.rank)
  slices_S8000000x4_S8000000x1_0_1 : S8000000x4.Slices ![0, 1] S8000000x1
  slices_S8000000x4_S8000000x1_0_3 : S8000000x4.Slices ![0, 3] S8000000x1
  natLt_1_32 : 1 < 32
  reducesTo_S8000000_S_d0 : S8000000.ReducesTo [0] S_
  h_S_ : 0 < S_.numel
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  reducesTo_S8000000x4_S_d0_1 : S8000000x4.ReducesTo [0, 1] S_

variable [Facts₀]

class Facts : Prop extends Facts₀ where

variable [Facts]
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.Spec.lean ====
/-
  The loss both programs compute, stated with no program in sight.

  Each of N boxes is a row (cx, cy, w, h) of a predicted array and of a target array. The target's corners are
  cx ∓ w/2, cy ∓ h/2; the prediction's are the same, clipped below at 0 and above at 1. The overlap box has lower
  corner the larger of the two lower corners and upper corner the smaller of the two upper corners; a row MISSES when
  the overlap box is empty along either axis (upper < lower), and HITS otherwise. Four sums over the rows are taken:
  the squared coordinate differences of the rows that miss, the number of rows that miss, the ratio
  overlap / (area + area - overlap + eps) of the rows that hit, and the number of rows that hit. The loss is
      (hit ratio sum) / max(hits, 1)  -  [misses > 0] (miss square sum) / max(4 misses, 1)      when hits > 0,
                                      -  (miss square sum) / max(4 misses, 1)                   otherwise.
  All arithmetic is that of the extended reals; the four constants are kept as the words both programs print.
  The sums are over finite index types, so cutting the rows into consecutive blocks and adding the blocks' sums
  gives the same totals: only commutativity and associativity of addition are used, never finiteness of an entry.
-/
import Idealize.ShloMosaic.PureOps.Ideal
import Idealize.ShloMosaic.PureOps.Ideal.Laws
import Idealize.ShloMosaic.Lib.ValueIdx
import proofs.«174585_j15187004359196_1_alg».proof.Proof.LibGemmSplit

noncomputable section

open scoped BigOperators

namespace Cert.BoxLoss

open Idealize.ShloMosaic Idealize.ShloMosaic.ValueIdx

/-- The constants, as the words the programs print: 1/2, 1, 0, the small term of the ratio's denominator, 4. -/
abbrev half : EReal := Ideal.ofBits .f32 0x3F000000#32
abbrev one : EReal := Ideal.ofBits .f32 0x3F800000#32
abbrev zero : EReal := Ideal.ofBits .f32 0x00000000#32
abbrev eps : EReal := Ideal.ofBits .f32 0x33D6BF95#32
abbrev four : EReal := Ideal.ofBits .f32 0x40800000#32

/-- A one-bit word as a number: 0 or 1 (the word widened to 32 bits and read as a signed integer). -/
def bitF (b : BitVec 1) : EReal := (((b.setWidth 32).toInt : ℝ) : EReal)

/-! ## One row: p the predicted (cx, cy, w, h), g the target -/

/-- The overlap box's lower corner along x and along y, -/
def lo0 (p g : Fin 4 → EReal) : EReal := max (g 0 - g 2 * half) (max (p 0 - p 2 * half) zero)
def lo1 (p g : Fin 4 → EReal) : EReal := max (g 1 - g 3 * half) (max (p 1 - p 3 * half) zero)
/-- and its upper corner. -/
def hi0 (p g : Fin 4 → EReal) : EReal := min (g 0 + g 2 * half) (min (p 0 + p 2 * half) one)
def hi1 (p g : Fin 4 → EReal) : EReal := min (g 1 + g 3 * half) (min (p 1 + p 3 * half) one)

/-- The row misses: the overlap box is empty along x or along y. -/
def miss (p g : Fin 4 → EReal) : BitVec 1 :=
  IntOp.ori (FloatOps.cmpf (F := Ideal) (φ := .f32) .olt (hi0 p g) (lo0 p g))
    (FloatOps.cmpf (F := Ideal) (φ := .f32) .olt (hi1 p g) (lo1 p g))

/-- The overlap's area and the ratio overlap / (area p + area g - overlap + eps). -/
def inter (p g : Fin 4 → EReal) : EReal := (hi0 p g - lo0 p g) * (hi1 p g - lo1 p g)
def ratio (p g : Fin 4 → EReal) : EReal := Ideal.div (inter p g) (p 2 * p 3 + g 2 * g 3 - inter p g + eps)

/-- A row's terms of the four sums. -/
def sqTerm (p g : Fin 4 → EReal) (k : Fin 4) : EReal := (p k - g k) * (p k - g k) * bitF (miss p g)
def missTerm (p g : Fin 4 → EReal) : EReal := bitF (miss p g)
def ratioTerm (p g : Fin 4 → EReal) : EReal := ratio p g * bitF (IntOp.xori (miss p g) 1#1)
def hitTerm (p g : Fin 4 → EReal) : EReal := bitF (IntOp.xori (miss p g) 1#1)

/-! ## The four sums over the rows of two N × 4 arrays -/

/-- Row R of an N × 4 array. -/
def rowOf {N : ℕ} (X : (⟨2, ![N, 4]⟩ : Shape).Idx → EReal) (R : Fin N) : Fin 4 → EReal := fun k => X (ix2 R k)

def sqSum {N : ℕ} (X Y : (⟨2, ![N, 4]⟩ : Shape).Idx → EReal) : EReal :=
  ∑ R : Fin N, ∑ k : Fin 4, sqTerm (rowOf X R) (rowOf Y R) k
def missSum {N : ℕ} (X Y : (⟨2, ![N, 4]⟩ : Shape).Idx → EReal) : EReal := ∑ R : Fin N, missTerm (rowOf X R) (rowOf Y R)
def ratioSum {N : ℕ} (X Y : (⟨2, ![N, 4]⟩ : Shape).Idx → EReal) : EReal := ∑ R : Fin N, ratioTerm (rowOf X R) (rowOf Y R)
def hitSum {N : ℕ} (X Y : (⟨2, ![N, 4]⟩ : Shape).Idx → EReal) : EReal := ∑ R : Fin N, hitTerm (rowOf X R) (rowOf Y R)

/-- The four sums as one vector, in the order (miss squares, misses, hit ratios, hits). -/
def sums {N : ℕ} (X Y : (⟨2, ![N, 4]⟩ : Shape).Idx → EReal) : Fin 4 → EReal :=
  ![sqSum X Y, missSum X Y, ratioSum X Y, hitSum X Y]

/-! ## The loss from the four sums -/

/-- The mean square of the rows that miss (over 4 numbers a row; 1 when there are none), negated. -/
def negMeanSq (s0 s1 : EReal) : EReal := -(Ideal.div s0 (max (s1 * four) one))

def tail (s0 s1 s2 s3 : EReal) : EReal :=
  Scalar.select (FloatOps.cmpf (F := Ideal) (φ := .f32) .ogt s3 zero)
    (Ideal.div s2 (max s3 one) + Scalar.select (FloatOps.cmpf (F := Ideal) (φ := .f32) .ogt s1 zero) (negMeanSq s0 s1) zero)
    (negMeanSq s0 s1)

/-- The loss of two 8000000 × 4 arrays. -/
def loss (X Y : (⟨2, ![8000000, 4]⟩ : Shape).Idx → EReal) : EReal :=
  tail (sqSum X Y) (missSum X Y) (ratioSum X Y) (hitSum X Y)

/-! ## Rows in consecutive blocks -/

/-- Block t, of n blocks of b rows, of an N × 4 array (N = n b): its row r is row b t + r. -/
def blockOf {N n b : ℕ} (h : n * b = N) (X : (⟨2, ![N, 4]⟩ : Shape).Idx → EReal) (t : Fin n) :
    (⟨2, ![b, 4]⟩ : Shape).Idx → EReal :=
  fun j => X (ix2 ⟨b * t.val + (j 0).val, LibGemmSplit.blk_lt h t (j 0)⟩ (j 1))

theorem rowOf_blockOf {N n b : ℕ} (h : n * b = N) (X : (⟨2, ![N, 4]⟩ : Shape).Idx → EReal) (t : Fin n) (r : Fin b) :
    rowOf (blockOf h X t) r = rowOf X ⟨b * t.val + r.val, LibGemmSplit.blk_lt h t r⟩ := rfl

/-- Each of the four sums is the sum over the blocks of the block's sum. -/
theorem sqSum_blocks {N n b : ℕ} (h : n * b = N) (X Y : (⟨2, ![N, 4]⟩ : Shape).Idx → EReal) :
    sqSum X Y = ∑ t : Fin n, sqSum (blockOf h X t) (blockOf h Y t) := by
  unfold sqSum; rw [LibGemmSplit.sum_blocks h]; rfl
theorem missSum_blocks {N n b : ℕ} (h : n * b = N) (X Y : (⟨2, ![N, 4]⟩ : Shape).Idx → EReal) :
    missSum X Y = ∑ t : Fin n, missSum (blockOf h X t) (blockOf h Y t) := by
  unfold missSum; rw [LibGemmSplit.sum_blocks h]; rfl
theorem ratioSum_blocks {N n b : ℕ} (h : n * b = N) (X Y : (⟨2, ![N, 4]⟩ : Shape).Idx → EReal) :
    ratioSum X Y = ∑ t : Fin n, ratioSum (blockOf h X t) (blockOf h Y t) := by
  unfold ratioSum; rw [LibGemmSplit.sum_blocks h]; rfl
theorem hitSum_blocks {N n b : ℕ} (h : n * b = N) (X Y : (⟨2, ![N, 4]⟩ : Shape).Idx → EReal) :
    hitSum X Y = ∑ t : Fin n, hitSum (blockOf h X t) (blockOf h Y t) := by
  unfold hitSum; rw [LibGemmSplit.sum_blocks h]; rfl

theorem sums_blocks {N n b : ℕ} (h : n * b = N) (X Y : (⟨2, ![N, 4]⟩ : Shape).Idx → EReal) (q : Fin 4) :
    sums X Y q = ∑ t : Fin n, sums (blockOf h X t) (blockOf h Y t) q := by
  match q with
  | ⟨0, _⟩ => exact sqSum_blocks h X Y
  | ⟨1, _⟩ => exact missSum_blocks h X Y
  | ⟨2, _⟩ => exact ratioSum_blocks h X Y
  | ⟨3, _⟩ => exact hitSum_blocks h X Y

/-! ## A running total started at the zero word -/

/-- zero, then block after block added on the right: after the blocks 0 … n it is the sum of those blocks' terms. -/
theorem zero_eq : zero = 0 := Ideal.ofBits_zero_f32

theorem running_total (f : ℕ → EReal) (a : ℕ → EReal) (h0 : a 0 = zero + f 0) (hs : ∀ n, a (n + 1) = a n + f (n + 1)) (n : ℕ) :
    a n = ∑ s ∈ Finset.range (n + 1), f s := by
  induction n with
  | zero => rw [h0, zero_eq, zero_add, Finset.sum_range_one]
  | succ n ih => rw [hs, ih, Finset.sum_range_succ (n := n + 1)]

end Cert.BoxLoss

end
-- ==== Proof.KTail.lean ====
/-
  The loss from the four sums, as the program's last lines compute it.

  After the grid the 1 × 4 output array holds the four sums. The program then takes each entry out as a scalar
  (the 1 × 1 slice at column q, reshaped to rank 0) and forms from the four scalars s0 s1 s2 s3
      s2 / max(s3, 1) + (-(s0 / max(4 s1, 1)) if s1 > 0, else 0)     if s3 > 0,
      -(s0 / max(4 s1, 1))                                            otherwise.
  Here the result buffer is read after those lines: at its one index it is the loss `Cert.BoxLoss.tail` of the
  array's four entries. The run of the whole program is then restated with that value in the result buffer and the
  two argument arrays unchanged.
-/
import proofs.«174585_j15187004359196_1_alg».proof.Proof.Gen.KernelIdeal.Frame
import proofs.«174585_j15187004359196_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Tail

open Cert.KernelIdeal Cert.KernelIdeal.Gen

/-! ## One entry of the array as a scalar -/

/-- Entry (0, q) of a 1 × 4 array taken out as a scalar. The 1 × 1 slice at column q has one entry, at row-major
    position 0, as the scalar has; and that entry of the slice is the array's at (0, 0 + q). -/
theorem scalar_apply (X : Vec Ideal S1x4 .f32) (q : Fin 4) (h : S1x4.Slices ![0, q.val] S1x1) (h' : S1x1.ShapeCasts S_)
    (j : S_.Idx) : shapeCast S_ (extractStridedSlice S1x1 ![0, q.val] X h) h' j = X (ix2 0 q) := by
  refine (shapeCast_apply _ h' j (ix2 0 0) ?_).trans ?_
  · have h1 : (S1x1.rowMajor (ix2 0 0)).val < 1 := (S1x1.rowMajor (ix2 0 0)).isLt
    have h2 : (S_.rowMajor j).val < 1 := (S_.rowMajor j).isLt
    omega
  · exact extractStridedSlice_apply ![0, q.val] X h (ix2 0 0) (ix2 0 q) (fun a => match a with
      | ⟨0, _⟩ => by show (0 : ℕ) = 0 + 0; omega
      | ⟨1, _⟩ => by show q.val = q.val + 0; omega)

/-- The four scalars the program takes out of the array. -/
def sc0 (X : Vec Ideal S1x4 .f32) : FVec Ideal S_ .f32 :=
  shapeCast S_ (extractStridedSlice S1x1 ![0, 0] X slices_S1x4_S1x1_0_0) shapeCasts_S1x1_S_
def sc1 (X : Vec Ideal S1x4 .f32) : FVec Ideal S_ .f32 :=
  shapeCast S_ (extractStridedSlice S1x1 ![0, 1] X slices_S1x4_S1x1_0_1) shapeCasts_S1x1_S_
def sc2 (X : Vec Ideal S1x4 .f32) : FVec Ideal S_ .f32 :=
  shapeCast S_ (extractStridedSlice S1x1 ![0, 2] X slices_S1x4_S1x1_0_2) shapeCasts_S1x1_S_
def sc3 (X : Vec Ideal S1x4 .f32) : FVec Ideal S_ .f32 :=
  shapeCast S_ (extractStridedSlice S1x1 ![0, 3] X slices_S1x4_S1x1_0_3) shapeCasts_S1x1_S_

theorem sc0_apply (X : Vec Ideal S1x4 .f32) (j : S_.Idx) : sc0 X j = X (ix2 0 0) := scalar_apply X 0 _ _ j
theorem sc1_apply (X : Vec Ideal S1x4 .f32) (j : S_.Idx) : sc1 X j = X (ix2 0 1) := scalar_apply X 1 _ _ j
theorem sc2_apply (X : Vec Ideal S1x4 .f32) (j : S_.Idx) : sc2 X j = X (ix2 0 2) := scalar_apply X 2 _ _ j
theorem sc3_apply (X : Vec Ideal S1x4 .f32) (j : S_.Idx) : sc3 X j = X (ix2 0 3) := scalar_apply X 3 _ _ j

/-! ## The scalar lines -/

/-- What the lines after the four scalars compute from them: 4 s1, its maximum with 1, the quotient s0 / that and its
    negation; the maximum of s3 with 1 and the quotient s2 / that; the two comparisons with 0 and the two choices. -/
def tailS (s0 s1 s2 s3 : FVec Ideal S_ .f32) : FVec Ideal S_ .f32 :=
  select (cmpf .ogt s3 (constant S_ .f32 0x00000000#32))
    (addf (Host.divf s2 (maximumf s3 (constant S_ .f32 0x3F800000#32)))
      (select (cmpf .ogt s1 (constant S_ .f32 0x00000000#32))
        (Host.negf (Host.divf s0 (maximumf (mulf s1 (constant S_ .f32 0x40800000#32)) (constant S_ .f32 0x3F800000#32))))
        (constant S_ .f32 0x00000000#32)))
    (Host.negf (Host.divf s0 (maximumf (mulf s1 (constant S_ .f32 0x40800000#32)) (constant S_ .f32 0x3F800000#32))))

/-- At the one index, over the extended reals, that is the loss of the four numbers: every operation is the extended
    reals' own at each index. -/
theorem tailS_apply (s0 s1 s2 s3 : FVec Ideal S_ .f32) (j : S_.Idx) :
    tailS s0 s1 s2 s3 j = Cert.BoxLoss.tail (s0 j) (s1 j) (s2 j) (s3 j) := rfl

/-- The lines after the region as one function of the output array. -/
def tailOps (X : Vec Ideal S1x4 .f32) : FVec Ideal S_ .f32 := tailS (sc0 X) (sc1 X) (sc2 X) (sc3 X)

theorem tailOps_apply (X : Vec Ideal S1x4 .f32) (j : S_.Idx) :
    tailOps X j = Cert.BoxLoss.tail (X (ix2 0 0)) (X (ix2 0 1)) (X (ix2 0 2)) (X (ix2 0 3)) := by
  refine (tailS_apply _ _ _ _ j).trans ?_
  rw [sc0_apply, sc1_apply, sc2_apply, sc3_apply]

/-! ## The result buffer after the lines -/

/-- From any buffer contents V, after the lines the result buffer holds that function of V's output array: each line
    writes its own result buffer only, and none writes the array. -/
theorem after_eq (V : Valuation τ sig (Elt Ideal)) :
    StableHlo.after (hostOps1 (F := Ideal)) V (Proc.devRef .tc main_v0) = tailOps (V (Proc.devRef .tc main_call0_v0)) := by
  after_results_simp
  rfl

/-- The result buffer after the whole program, given the output array A the region leaves: the loss of A's four
    entries. -/
theorem tail_read (m : (ℓ : Loc nD τ sig) → Buf (Elt Ideal) ℓ) (c : Dev nD) (A : Vec Ideal S1x4 .f32)
    (hA : (dats (F := Ideal) m 0 c).arrAt 2 cfg0.N = A) :
    Pipeline.afterTail₀ cfgs (dats (F := Ideal) m) 0 (V0 m) [hostOps1] c main_v0
      = fun _ => Cert.BoxLoss.tail (A (ix2 0 0)) (A (ix2 0 1)) (A (ix2 0 2)) (A (ix2 0 3)) := by
  unfold Pipeline.afterTail₀
  show StableHlo.after hostOps1 _ (Proc.devRef .tc main_v0) = _
  refine (after_eq _).trans ?_
  refine (congrArg tailOps ((Pipeline.withArrays_arr spec0 launch0.win.arr_inj c _ _ 2).trans hA)).trans ?_
  exact funext fun j => tailOps_apply A j

/-! ## The run -/

/-- From any memory with zero counters every weakly fair execution of the program terminates, with the result buffer
    at the loss of the output array's four entries and the two argument arrays as they were: the result buffer is no
    array of the region, so it ends at what the lines after the region leave in it; the arguments are the region's
    input arrays, which it only reads. -/
theorem run_of_final (m : (ℓ : Loc nD τ sig) → Buf (Elt Ideal) ℓ) (ρ : Dev nD → PrngReg)
    (A : (c : Dev nD) → Vec Ideal S1x4 .f32) (hA : ∀ c, (dats (F := Ideal) m 0 c).arrAt 2 cfg0.N = A c) :
    θ_run defs (onTc (τ := τ) (main (F := Ideal))) ⟨m, fun _ => 0, ρ⟩ (fun r => ∀ c : Dev nD,
      r.2.mem ((c.tc : Thread nD τ).loc main_v0)
          = (fun _ => Cert.BoxLoss.tail (A c (ix2 0 0)) (A c (ix2 0 1)) (A c (ix2 0 2)) (A c (ix2 0 3)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 rfl (by decide))).trans (tail_read m c (A c) (hA c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.KRow.lean ====
/-
  One block's contribution, entry by entry.

  A block is 200000 rows of predictions x0 and of targets x1. The body cuts each into its four columns (a strided
  slice reshaped to a vector: entry r of column q is entry (r, q) of the block), works row by row on the columns, and
  reduces. Read at row r every vector of the body is the corresponding per-row term of the specification at the rows
  r of x0 and x1; the four reductions (one over a 1 × 200000 × 4 reshaping, three over 1 × 200000 reshapings) are
  total sums, and a reshaping only renames the indices a sum runs over. So the accumulator after the point is, entry
  q, the accumulator before plus the block's q-th sum.
-/
import proofs.«174585_j15187004359196_1_alg».proof.Proof.Gen.KernelIdeal.Skeleton
import proofs.«174585_j15187004359196_1_alg».proof.Proof.Spec
import proofs.«174585_j15187004359196_1_alg».proof.Proof.LibColumn
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen Cert.BoxLoss

/-! ## Layout: columns, reshapings under a sum -/

/-- Column q of a block, as a vector: its entry r is the block's entry (r, q). -/
theorem col_apply {α : Type} (x : S200000x4.Idx → α) (q : Fin 4) (off : Fin 2 → Nat) (hoff : off = ![0, q.val])
    (hs : S200000x4.Slices off S200000x1) (hc : S200000x1.ShapeCasts S200000) (r : Fin 200000) :
    shapeCast S200000 (extractStridedSlice S200000x1 off x hs) hc (ix1 r) = x (ix2 r q) := by
  subst hoff
  refine (shapeCast_apply _ hc (ix1 r) (ix2 r (0 : Fin 1)) ?_).trans ?_
  · rw [Shape.rowMajor_val_two, Shape.rowMajor_val_one]
    show r.val * 1 + 0 = r.val
    omega
  · unfold extractStridedSlice
    refine congrArg x (funext fun a => Fin.ext ?_)
    match a with
    | ⟨0, _⟩ => show 0 + r.val = r.val; omega
    | ⟨1, _⟩ => show q.val + 0 = q.val; omega

theorem col0 {α : Type} (x : S200000x4.Idx → α) (hs : S200000x4.Slices ![0, 0] S200000x1) (hc : S200000x1.ShapeCasts S200000)
    (r : Fin 200000) : shapeCast S200000 (extractStridedSlice S200000x1 ![0, 0] x hs) hc (ix1 r) = x (ix2 r 0) :=
  col_apply x 0 _ rfl hs hc r
theorem col1 {α : Type} (x : S200000x4.Idx → α) (hs : S200000x4.Slices ![0, 1] S200000x1) (hc : S200000x1.ShapeCasts S200000)
    (r : Fin 200000) : shapeCast S200000 (extractStridedSlice S200000x1 ![0, 1] x hs) hc (ix1 r) = x (ix2 r 1) :=
  col_apply x 1 _ rfl hs hc r
theorem col2 {α : Type} (x : S200000x4.Idx → α) (hs : S200000x4.Slices ![0, 2] S200000x1) (hc : S200000x1.ShapeCasts S200000)
    (r : Fin 200000) : shapeCast S200000 (extractStridedSlice S200000x1 ![0, 2] x hs) hc (ix1 r) = x (ix2 r 2) :=
  col_apply x 2 _ rfl hs hc r
theorem col3 {α : Type} (x : S200000x4.Idx → α) (hs : S200000x4.Slices ![0, 3] S200000x1) (hc : S200000x1.ShapeCasts S200000)
    (r : Fin 200000) : shapeCast S200000 (extractStridedSlice S200000x1 ![0, 3] x hs) hc (ix1 r) = x (ix2 r 3) :=
  col_apply x 3 _ rfl hs hc r

/-- A reshaping renames the indices: the sum of the entries is unchanged. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-- A sum over the indices of a vector is the sum over its positions. -/
theorem sum_idx1 {M : Type} [AddCommMonoid M] {n : ℕ} (f : (⟨1, ![n]⟩ : Shape).Idx → M) : ∑ i, f i = ∑ a : Fin n, f (ix1 a) :=
  Fintype.sum_equiv ⟨fun i => i 0, ix1, fun i => (eq_ix1 i).symm, fun _ => rfl⟩ _ _ (fun i => congrArg f (eq_ix1 i))

/-! ## The body's vectors, read at a row -/

section
variable {F : FTy → Type} [FloatOps F]

/-- The accumulator after a point, from the point's two input blocks and the accumulator before: the body's one
    arithmetic term, the overlap corners and the miss mask computed once and shared by the four partial sums. -/
def step (x0 x1 : Vec F S200000x4 .f32) (acc : Vec F S1x4 .f32) : FVec F S1x4 .f32 :=
  k0_pay1 (k0_pay10 (k0_pay3 x1) (k0_pay7 x0)) (k0_pay11 x0 (k0_pay5 x1)) (k0_pay12 (k0_pay4 x1) (k0_pay8 x0) (k0_pay9 x0))
    (k0_pay13 x0 (k0_pay6 x1)) (k0_pay15 x0 (k0_pay3 x1) (k0_pay4 x1) (k0_pay5 x1) (k0_pay6 x1) (k0_pay7 x0) (k0_pay8 x0) (k0_pay9 x0))
    (k0_pay16 x0 (k0_pay3 x1) (k0_pay4 x1) (k0_pay5 x1) (k0_pay6 x1) (k0_pay7 x0) (k0_pay8 x0) (k0_pay9 x0))
    (k0_pay17 x0 x1 (k0_pay3 x1) (k0_pay4 x1) (k0_pay5 x1) (k0_pay6 x1) (k0_pay7 x0) (k0_pay8 x0) (k0_pay9 x0))
    (k0_pay18 x0) (k0_pay19 x1) (k0_pay20 x1) acc
end

section
variable (x0 x1 : Vec Ideal S200000x4 .f32) (r : Fin 200000)

/-- The overlap box's corners at row r. -/
theorem lo0_apply : (k0_pay10 (k0_pay3 x1) (k0_pay7 x0)) (ix1 r) = lo0 (rowOf x0 r) (rowOf x1 r) := by
  unfold k0_pay10 k0_pay3 k0_pay7
  try dsimp only
  simp only [maximumf_apply, subf_apply, mulf_apply, broadcast_apply, col0, col2]
  rfl

theorem lo1_apply : (k0_pay11 x0 (k0_pay5 x1)) (ix1 r) = lo1 (rowOf x0 r) (rowOf x1 r) := by
  unfold k0_pay11 k0_pay5
  try dsimp only
  simp only [maximumf_apply, subf_apply, mulf_apply, broadcast_apply, col1, col3]
  rfl

theorem hi0_apply : (k0_pay12 (k0_pay4 x1) (k0_pay8 x0) (k0_pay9 x0)) (ix1 r) = hi0 (rowOf x0 r) (rowOf x1 r) := by
  unfold k0_pay12 k0_pay4 k0_pay8 k0_pay9
  try dsimp only
  simp only [minimumf_apply, addf_apply, mulf_apply, broadcast_apply, col0, col2]
  rfl

theorem hi1_apply : (k0_pay13 x0 (k0_pay6 x1)) (ix1 r) = hi1 (rowOf x0 r) (rowOf x1 r) := by
  unfold k0_pay13 k0_pay6
  try dsimp only
  simp only [minimumf_apply, addf_apply, mulf_apply, broadcast_apply, col1, col3]
  rfl

/-- The miss mask at row r, as a bit and as the two numbers the sums use. -/
theorem mask_apply : (k0_pay14 x0 (k0_pay3 x1) (k0_pay4 x1) (k0_pay5 x1) (k0_pay6 x1) (k0_pay7 x0) (k0_pay8 x0) (k0_pay9 x0)) (ix1 r) = miss (rowOf x0 r) (rowOf x1 r) := by
  unfold k0_pay14
  show IntOp.ori (FloatOps.cmpf .olt ((k0_pay12 (k0_pay4 x1) (k0_pay8 x0) (k0_pay9 x0)) (ix1 r)) ((k0_pay10 (k0_pay3 x1) (k0_pay7 x0)) (ix1 r)))
      (FloatOps.cmpf .olt ((k0_pay13 x0 (k0_pay6 x1)) (ix1 r)) ((k0_pay11 x0 (k0_pay5 x1)) (ix1 r))) = _
  rw [hi0_apply, lo0_apply, hi1_apply, lo1_apply]
  rfl

theorem missOf_apply : (k0_pay15 x0 (k0_pay3 x1) (k0_pay4 x1) (k0_pay5 x1) (k0_pay6 x1) (k0_pay7 x0) (k0_pay8 x0) (k0_pay9 x0)) (ix1 r) = bitF (miss (rowOf x0 r) (rowOf x1 r)) := by
  unfold k0_pay15
  show FloatOps.sitofp (F := Ideal) .f32 (((k0_pay14 x0 (k0_pay3 x1) (k0_pay4 x1) (k0_pay5 x1) (k0_pay6 x1) (k0_pay7 x0) (k0_pay8 x0) (k0_pay9 x0)) (ix1 r)).setWidth 32) = _
  rw [mask_apply]
  rfl

theorem hitOf_apply : (k0_pay16 x0 (k0_pay3 x1) (k0_pay4 x1) (k0_pay5 x1) (k0_pay6 x1) (k0_pay7 x0) (k0_pay8 x0) (k0_pay9 x0)) (ix1 r) = bitF (IntOp.xori (miss (rowOf x0 r) (rowOf x1 r)) 1#1) := by
  unfold k0_pay16
  show FloatOps.sitofp (F := Ideal) .f32 ((IntOp.xori ((k0_pay14 x0 (k0_pay3 x1) (k0_pay4 x1) (k0_pay5 x1) (k0_pay6 x1) (k0_pay7 x0) (k0_pay8 x0) (k0_pay9 x0)) (ix1 r)) 1#1).setWidth 32) = _
  rw [mask_apply]
  rfl

/-- The two areas' columns at row r. -/
theorem areaP_apply : k0_pay18 x0 (ix1 r) = rowOf x0 r 2 * rowOf x0 r 3 := by
  unfold k0_pay18
  try dsimp only
  simp only [mulf_apply, col2, col3]
  rfl
theorem w_apply : k0_pay19 x1 (ix1 r) = rowOf x1 r 2 := by
  unfold k0_pay19
  simp only [col2]
  rfl
theorem h_apply (hc : S200000x1.ShapeCasts S200000) : shapeCast S200000 (k0_pay20 x1) hc (ix1 r) = rowOf x1 r 3 := by
  unfold k0_pay20
  simp only [col3]
  rfl

end

/-! ## The four partial sums of a block -/

section
variable (x0 x1 : Vec Ideal S200000x4 .f32)

/-- A float sum into the one-entry vector is the sum of every entry of its operand. -/
theorem total_apply {s : Shape} {axes : List (Fin s.rank)} (src : FVec Ideal s .f32) (h : s.Reduces axes S1) (hφ : FKind.Formats .f32)
    (hacc : (0x00000000#32 : BitVec 32) = FKind.add.neutral .f32 hφ) (j : S1.Idx) :
    multiReduction .add axes S1 src 0x00000000#32 h hφ hacc j = ∑ i : s.Idx, src i :=
  Ideal.multiReduction_add_total src _ h (fun b => by match b with | ⟨0, _⟩ => rfl) hφ hacc j

/-- The squares of the rows that miss. -/
theorem sqPart : (k0_pay17 x0 x1 (k0_pay3 x1) (k0_pay4 x1) (k0_pay5 x1) (k0_pay6 x1) (k0_pay7 x0) (k0_pay8 x0) (k0_pay9 x0)) = sqSum x0 x1 := by
  unfold k0_pay17
  try dsimp only
  refine (total_apply _ _ (.inl rfl) rfl _).trans ?_
  rw [sum_shapeCast, sum_idx2]
  unfold sqSum
  refine Finset.sum_congr rfl fun r _ => Finset.sum_congr rfl fun k _ => ?_
  show (x0 (ix2 r k) - x1 (ix2 r k)) * (x0 (ix2 r k) - x1 (ix2 r k)) * broadcastTo S200000x4 (shapeCast S200000x1 (k0_pay15 x0 (k0_pay3 x1) (k0_pay4 x1) (k0_pay5 x1) (k0_pay6 x1) (k0_pay7 x0) (k0_pay8 x0) (k0_pay9 x0)) _) _ (ix2 r k) = _
  exact congrArg (fun z => (x0 (ix2 r k) - x1 (ix2 r k)) * (x0 (ix2 r k) - x1 (ix2 r k)) * z)
    ((Cert.Column.broadcastTo_a1_ab_apply _ _ r k).trans ((Cert.Column.shapeCast_a_a1_apply _ _ r 0).trans (missOf_apply x0 x1 r)))

/-- A vector laid out as one row, summed along the row, and the one result read as a scalar: the sum of the
    vector's entries. -/
theorem rowTotal (v : FVec Ideal S200000 .f32) (hc : S200000.ShapeCasts S1x200000) (hr : S1x200000.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction .add [1] S1 (shapeCast S1x200000 v hc) 0x00000000#32 hr hφ hacc) hc') hp
      = ∑ r : Fin 200000, v (ix1 r) :=
  (total_apply _ hr hφ hacc _).trans ((sum_shapeCast v hc).trans (sum_idx1 v))

/-- The number of rows that miss, and the number that hit. -/
theorem missPart (hc : S200000.ShapeCasts S1x200000) (hr : S1x200000.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction .add [1] S1 (shapeCast S1x200000 (k0_pay15 x0 (k0_pay3 x1) (k0_pay4 x1) (k0_pay5 x1) (k0_pay6 x1) (k0_pay7 x0) (k0_pay8 x0) (k0_pay9 x0)) hc) 0x00000000#32 hr hφ hacc) hc') hp
      = missSum x0 x1 :=
  (rowTotal _ hc hr hφ hacc hc' hp).trans (Finset.sum_congr rfl fun r _ => missOf_apply x0 x1 r)

theorem hitPart (hc : S200000.ShapeCasts S1x200000) (hr : S1x200000.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction .add [1] S1 (shapeCast S1x200000 (k0_pay16 x0 (k0_pay3 x1) (k0_pay4 x1) (k0_pay5 x1) (k0_pay6 x1) (k0_pay7 x0) (k0_pay8 x0) (k0_pay9 x0)) hc) 0x00000000#32 hr hφ hacc) hc') hp
      = hitSum x0 x1 :=
  (rowTotal _ hc hr hφ hacc hc' hp).trans (Finset.sum_congr rfl fun r _ => hitOf_apply x0 x1 r)

/-- The ratio of a row that hits, at row r. -/
theorem ratio_entry (hcs : S200000x1.ShapeCasts S200000) (r : Fin 200000) :
    mulf (divf (mulf (subf (k0_pay12 (k0_pay4 x1) (k0_pay8 x0) (k0_pay9 x0)) (k0_pay10 (k0_pay3 x1) (k0_pay7 x0))) (subf (k0_pay13 x0 (k0_pay6 x1)) (k0_pay11 x0 (k0_pay5 x1))))
        (addf (subf (addf (k0_pay18 x0) (mulf (k0_pay19 x1) (shapeCast S200000 (k0_pay20 x1) hcs))) (mulf (subf (k0_pay12 (k0_pay4 x1) (k0_pay8 x0) (k0_pay9 x0)) (k0_pay10 (k0_pay3 x1) (k0_pay7 x0))) (subf (k0_pay13 x0 (k0_pay6 x1)) (k0_pay11 x0 (k0_pay5 x1)))))
          (broadcast S200000 (Scalar.ofBits .f32 0x33D6BF95#32))))
      (k0_pay16 x0 (k0_pay3 x1) (k0_pay4 x1) (k0_pay5 x1) (k0_pay6 x1) (k0_pay7 x0) (k0_pay8 x0) (k0_pay9 x0)) (ix1 r) = ratioTerm (rowOf x0 r) (rowOf x1 r) := by
  show Ideal.div (((k0_pay12 (k0_pay4 x1) (k0_pay8 x0) (k0_pay9 x0)) (ix1 r) - (k0_pay10 (k0_pay3 x1) (k0_pay7 x0)) (ix1 r)) * ((k0_pay13 x0 (k0_pay6 x1)) (ix1 r) - (k0_pay11 x0 (k0_pay5 x1)) (ix1 r)))
      (k0_pay18 x0 (ix1 r) + k0_pay19 x1 (ix1 r) * shapeCast S200000 (k0_pay20 x1) hcs (ix1 r)
        - ((k0_pay12 (k0_pay4 x1) (k0_pay8 x0) (k0_pay9 x0)) (ix1 r) - (k0_pay10 (k0_pay3 x1) (k0_pay7 x0)) (ix1 r)) * ((k0_pay13 x0 (k0_pay6 x1)) (ix1 r) - (k0_pay11 x0 (k0_pay5 x1)) (ix1 r)) + Ideal.ofBits .f32 0x33D6BF95#32)
      * (k0_pay16 x0 (k0_pay3 x1) (k0_pay4 x1) (k0_pay5 x1) (k0_pay6 x1) (k0_pay7 x0) (k0_pay8 x0) (k0_pay9 x0)) (ix1 r) = _
  rw [hi0_apply, lo0_apply, hi1_apply, lo1_apply, areaP_apply, w_apply, h_apply, hitOf_apply]
  rfl

theorem ratioPart (hcs : S200000x1.ShapeCasts S200000) (hc : S200000.ShapeCasts S1x200000) (hr : S1x200000.Reduces [1] S1)
    (hφ : FKind.Formats .f32) (hacc : (0x00000000#32 : BitVec 32) = FKind.add.neutral .f32 hφ)
    (hc' : S1.ShapeCasts S1x1) (hp : ∀ a, (![0, 0] : Fin 2 → Nat) a < S1x1.size a) :
    extractAt ![0, 0] (shapeCast S1x1 (multiReduction .add [1] S1 (shapeCast S1x200000
      (mulf (divf (mulf (subf (k0_pay12 (k0_pay4 x1) (k0_pay8 x0) (k0_pay9 x0)) (k0_pay10 (k0_pay3 x1) (k0_pay7 x0))) (subf (k0_pay13 x0 (k0_pay6 x1)) (k0_pay11 x0 (k0_pay5 x1))))
        (addf (subf (addf (k0_pay18 x0) (mulf (k0_pay19 x1) (shapeCast S200000 (k0_pay20 x1) hcs))) (mulf (subf (k0_pay12 (k0_pay4 x1) (k0_pay8 x0) (k0_pay9 x0)) (k0_pay10 (k0_pay3 x1) (k0_pay7 x0))) (subf (k0_pay13 x0 (k0_pay6 x1)) (k0_pay11 x0 (k0_pay5 x1)))))
          (broadcast S200000 (Scalar.ofBits .f32 0x33D6BF95#32))))
      (k0_pay16 x0 (k0_pay3 x1) (k0_pay4 x1) (k0_pay5 x1) (k0_pay6 x1) (k0_pay7 x0) (k0_pay8 x0) (k0_pay9 x0))) hc) 0x00000000#32 hr hφ hacc) hc') hp
      = ratioSum x0 x1 :=
  (rowTotal _ hc hr hφ hacc hc' hp).trans (Finset.sum_congr rfl fun r _ => ratio_entry x0 x1 hcs r)

/-- Four scalars laid end to end as a vector of four: entry q is the q-th scalar. -/
theorem concat4_0 (a b c d : Ideal .f32)
    (h : Shape.Concatenates (([⟨S1, broadcast S1 a⟩, ⟨S1, broadcast S1 b⟩, ⟨S1, broadcast S1 c⟩, ⟨S1, broadcast S1 d⟩] :
      List ((s : Shape) × (s.Idx → Ideal .f32))).map (·.1)) S4 0) :
    concatenate S4 0 [⟨S1, broadcast S1 a⟩, ⟨S1, broadcast S1 b⟩, ⟨S1, broadcast S1 c⟩, ⟨S1, broadcast S1 d⟩] h (ix1 (0 : Fin 4)) = a :=
  concatenate_ofFn_unit_apply (t := S4) (s₁ := S1) (0 : Fin 1) (fun n : Fin 4 => (broadcast S1 (![a, b, c, d] n) : S1.Idx → Ideal .f32))
    h rfl rfl (ix1 (0 : Fin 4)) (0 : Fin 4) rfl (ix1 (0 : Fin 1)) (fun b' hb => absurd (Subsingleton.elim _ _) hb)
theorem concat4_1 (a b c d : Ideal .f32)
    (h : Shape.Concatenates (([⟨S1, broadcast S1 a⟩, ⟨S1, broadcast S1 b⟩, ⟨S1, broadcast S1 c⟩, ⟨S1, broadcast S1 d⟩] :
      List ((s : Shape) × (s.Idx → Ideal .f32))).map (·.1)) S4 0) :
    concatenate S4 0 [⟨S1, broadcast S1 a⟩, ⟨S1, broadcast S1 b⟩, ⟨S1, broadcast S1 c⟩, ⟨S1, broadcast S1 d⟩] h (ix1 (1 : Fin 4)) = b :=
  concatenate_ofFn_unit_apply (t := S4) (s₁ := S1) (0 : Fin 1) (fun n : Fin 4 => (broadcast S1 (![a, b, c, d] n) : S1.Idx → Ideal .f32))
    h rfl rfl (ix1 (1 : Fin 4)) (1 : Fin 4) rfl (ix1 (0 : Fin 1)) (fun b' hb => absurd (Subsingleton.elim _ _) hb)
theorem concat4_2 (a b c d : Ideal .f32)
    (h : Shape.Concatenates (([⟨S1, broadcast S1 a⟩, ⟨S1, broadcast S1 b⟩, ⟨S1, broadcast S1 c⟩, ⟨S1, broadcast S1 d⟩] :
      List ((s : Shape) × (s.Idx → Ideal .f32))).map (·.1)) S4 0) :
    concatenate S4 0 [⟨S1, broadcast S1 a⟩, ⟨S1, broadcast S1 b⟩, ⟨S1, broadcast S1 c⟩, ⟨S1, broadcast S1 d⟩] h (ix1 (2 : Fin 4)) = c :=
  concatenate_ofFn_unit_apply (t := S4) (s₁ := S1) (0 : Fin 1) (fun n : Fin 4 => (broadcast S1 (![a, b, c, d] n) : S1.Idx → Ideal .f32))
    h rfl rfl (ix1 (2 : Fin 4)) (2 : Fin 4) rfl (ix1 (0 : Fin 1)) (fun b' hb => absurd (Subsingleton.elim _ _) hb)
theorem concat4_3 (a b c d : Ideal .f32)
    (h : Shape.Concatenates (([⟨S1, broadcast S1 a⟩, ⟨S1, broadcast S1 b⟩, ⟨S1, broadcast S1 c⟩, ⟨S1, broadcast S1 d⟩] :
      List ((s : Shape) × (s.Idx → Ideal .f32))).map (·.1)) S4 0) :
    concatenate S4 0 [⟨S1, broadcast S1 a⟩, ⟨S1, broadcast S1 b⟩, ⟨S1, broadcast S1 c⟩, ⟨S1, broadcast S1 d⟩] h (ix1 (3 : Fin 4)) = d :=
  concatenate_ofFn_unit_apply (t := S4) (s₁ := S1) (0 : Fin 1) (fun n : Fin 4 => (broadcast S1 (![a, b, c, d] n) : S1.Idx → Ideal .f32))
    h rfl rfl (ix1 (3 : Fin 4)) (3 : Fin 4) rfl (ix1 (0 : Fin 1)) (fun b' hb => absurd (Subsingleton.elim _ _) hb)

/-- The vector of the four sums, entry by entry. -/
theorem sums0 {N : ℕ} (X Y : (⟨2, ![N, 4]⟩ : Shape).Idx → EReal) : sums X Y 0 = sqSum X Y := by simp [sums]
theorem sums1 {N : ℕ} (X Y : (⟨2, ![N, 4]⟩ : Shape).Idx → EReal) : sums X Y 1 = missSum X Y := by simp [sums]
theorem sums2 {N : ℕ} (X Y : (⟨2, ![N, 4]⟩ : Shape).Idx → EReal) : sums X Y 2 = ratioSum X Y := by simp [sums]
theorem sums3 {N : ℕ} (X Y : (⟨2, ![N, 4]⟩ : Shape).Idx → EReal) : sums X Y 3 = hitSum X Y := by simp [sums]

/-- The accumulator after a point, at each of its four entries: the accumulator before plus the block's sum. -/
theorem step_at0 (acc : Vec Ideal S1x4 .f32) : step x0 x1 acc (ix2 0 0) = acc (ix2 0 0) + sqSum x0 x1 := by
  unfold step k0_pay1
  try dsimp only
  show shapeCast S1x4 acc _ (ix2 0 0) + shapeCast S1x4 (concatenate S4 0 _ _) _ (ix2 0 0) = _
  rw [shapeCast_self, shapeCast_a_1a_apply, concat4_0, sqPart]

theorem step_at1 (acc : Vec Ideal S1x4 .f32) : step x0 x1 acc (ix2 0 1) = acc (ix2 0 1) + missSum x0 x1 := by
  unfold step k0_pay1
  try dsimp only
  show shapeCast S1x4 acc _ (ix2 0 1) + shapeCast S1x4 (concatenate S4 0 _ _) _ (ix2 0 1) = _
  rw [shapeCast_self, shapeCast_a_1a_apply, concat4_1]
  exact congrArg (acc (ix2 0 1) + ·) (missPart x0 x1 _ _ _ _ _ _)

theorem step_at2 (acc : Vec Ideal S1x4 .f32) : step x0 x1 acc (ix2 0 2) = acc (ix2 0 2) + ratioSum x0 x1 := by
  unfold step k0_pay1
  try dsimp only
  show shapeCast S1x4 acc _ (ix2 0 2) + shapeCast S1x4 (concatenate S4 0 _ _) _ (ix2 0 2) = _
  rw [shapeCast_self, shapeCast_a_1a_apply, concat4_2]
  exact congrArg (acc (ix2 0 2) + ·) (ratioPart x0 x1 _ _ _ _ _ _ _)

theorem step_at3 (acc : Vec Ideal S1x4 .f32) : step x0 x1 acc (ix2 0 3) = acc (ix2 0 3) + hitSum x0 x1 := by
  unfold step k0_pay1
  try dsimp only
  show shapeCast S1x4 acc _ (ix2 0 3) + shapeCast S1x4 (concatenate S4 0 _ _) _ (ix2 0 3) = _
  rw [shapeCast_self, shapeCast_a_1a_apply, concat4_3]
  exact congrArg (acc (ix2 0 3) + ·) (hitPart x0 x1 _ _ _ _ _ _)

/-- The same, for any entry q. -/
theorem step_apply (acc : Vec Ideal S1x4 .f32) (q : Fin 4) : step x0 x1 acc (ix2 0 q) = acc (ix2 0 q) + sums x0 x1 q := by
  match q with
  | ⟨0, _⟩ => show step x0 x1 acc (ix2 0 0) = acc (ix2 0 0) + sums x0 x1 0; rw [sums0]; exact step_at0 x0 x1 acc
  | ⟨1, _⟩ => show step x0 x1 acc (ix2 0 1) = acc (ix2 0 1) + sums x0 x1 1; rw [sums1]; exact step_at1 x0 x1 acc
  | ⟨2, _⟩ => show step x0 x1 acc (ix2 0 2) = acc (ix2 0 2) + sums x0 x1 2; rw [sums2]; exact step_at2 x0 x1 acc
  | ⟨3, _⟩ => show step x0 x1 acc (ix2 0 3) = acc (ix2 0 3) + sums x0 x1 3; rw [sums3]; exact step_at3 x0 x1 acc

end

end Cert.KernelIdeal.Rows

end
-- ==== Proof.KStep.lean ====
/-
  What one grid point leaves in the accumulator block.

  The body reads the block of predictions x0 and the block of targets x1 (200000 rows of 4 numbers each), forms the
  four partial sums of the block, and adds them to the 1 × 4 accumulator it finds in the output's staging buffer. At
  the first point it first overwrites the accumulator with zeros, so it adds the partial sums to zero; at every later
  point it adds them to what the point before left. Both facts are read off the stores the run of the body found: the
  last store covers the whole 1 × 4 block, so the block ends at that store's value.
-/
import proofs.«174585_j15187004359196_1_alg».proof.Proof.Gen.KernelIdeal.Frame
import proofs.«174585_j15187004359196_1_alg».proof.Proof.KRow
import Idealize.ShloMosaic.Lib.Pipeline.Value
import Idealize.ShloMosaic.Lib.Tactic

noncomputable section

open Idealize.ShloMosaic Idealize.ShloMosaic.TcCoe Idealize.SL.Sem

namespace Cert.KernelIdeal.Blocks

open Cert.KernelIdeal Cert.KernelIdeal.Gen
open Cert.KernelIdeal.Rows (step)

variable {F : FTy → Type} [FloatOps F]

theorem hz : (![0, 0] : Fin 2 → Nat) = fun _ => 0 := funext fun a => by fin_cases a <;> rfl

/-- A later point: the accumulator it found, stepped. -/
theorem out_B (c : Dev nD) (i : grid0.Coords) (a1 : Memref sig .tc .vmem S200000x4 .f32) (h1 : a1.IsWhole)
    (a2 : Memref sig .tc .vmem S200000x4 .f32) (h2 : a2.IsWhole) (a3 : Memref sig .tc .vmem S1x4 .f32) (h3 : a3.IsWhole)
    (hc : ¬cond0_0 i) (x0 x1 : Vec F S200000x4 .f32) (xo : Vec F S1x4 .f32) :
    out0_B_2 c i a1 h1 a2 h2 a3 h3 hc x0 x1 xo = step x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S200000x4) hz,
    View.ld_unit_zero (S := S1x4) hz]
  rfl

/-- The first point: zeros, stepped. -/
theorem out_A (c : Dev nD) (i : grid0.Coords) (a1 : Memref sig .tc .vmem S200000x4 .f32) (h1 : a1.IsWhole)
    (a2 : Memref sig .tc .vmem S200000x4 .f32) (h2 : a2.IsWhole) (a3 : Memref sig .tc .vmem S1x4 .f32) (h3 : a3.IsWhole)
    (hc : cond0_0 i) (x0 x1 : Vec F S200000x4 .f32) :
    out0_A_2 c i a1 h1 a2 h2 a3 h3 hc x0 x1 = step x0 x1 (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x4) hz, View.readCov_unit_zero (S := S1x4) _ hz]
  simp only [View.readAt_eq_ld, h1.read_unread, h2.read_unread, View.ld_unit_zero (S := S200000x4) hz,
    View.ld_unit_zero (S := S1x4) hz]
  rfl

end Cert.KernelIdeal.Blocks

end
-- ==== Proof.KAcc.lean ====
/-
  The accumulator over the grid, and the array it is written back to.

  The grid has 40 points; point t stages rows 200000 t … 200000 t + 199999 of both inputs, so its two input blocks are
  block t of the prediction array and of the target array. The accumulator block's index never moves and it is
  written back only after point 39. After point n it holds, entry q, the q-th sums of blocks 0 … n added up (by
  induction on n: zeros plus block 0's sums at the first point, the previous contents plus the block's sums after);
  after point 39 that is the sum over all 40 blocks, which is the sum over all 8000000 rows. The one write-back at
  point 39 covers the whole 1 × 4 result array, so the array ends holding exactly the four sums.
-/
import proofs.«174585_j15187004359196_1_alg».proof.Proof.Gen.KernelIdeal.Frame
import proofs.«174585_j15187004359196_1_alg».proof.Proof.Spec
import proofs.«174585_j15187004359196_1_alg».proof.Proof.KRow
import proofs.«174585_j15187004359196_1_alg».proof.Proof.KStep
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BoxLoss
open Cert.KernelIdeal.Rows (step step_apply)

variable (m : (ℓ : Loc nD τ sig) → Buf (Elt Ideal) ℓ)

theorem h40 : 40 * 200000 = 8000000 := by norm_num

/-- Point t's blocks of both inputs start at row-block t, column-block 0. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A grid point as a block number. -/
def blk (t : Fin cfg0.N) : Fin 40 := ⟨t.val, lt_of_lt_of_eq t.isLt N_0⟩

/-- The prediction block the body reads at point t is block t of the prediction array, -/
theorem iblk0_eq (c : Dev nD) (t : Fin cfg0.N) :
    (iblk m c 0 t : Vec Ideal S200000x4 .f32) = blockOf h40 (m ((c : Thread nD τ).loc main_arg0)) (blk t) := by
  funext j
  unfold iblk blockOf
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t 0 * 200000 + 1 * (j 0).val = 200000 * t.val + (j 0).val; rw [(idx_in0 t).1]; omega
  | ⟨1, _⟩ => show win0_0.index t 1 * 4 + 1 * (j 1).val = (j 1).val; rw [(idx_in0 t).2]; omega

/-- and the target block is block t of the target array. -/
theorem iblk1_eq (c : Dev nD) (t : Fin cfg0.N) :
    (iblk m c 1 t : Vec Ideal S200000x4 .f32) = blockOf h40 (m ((c : Thread nD τ).loc main_arg1)) (blk t) := by
  funext j
  unfold iblk blockOf
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t 0 * 200000 + 1 * (j 0).val = 200000 * t.val + (j 0).val; rw [(idx_in1 t).1]; omega
  | ⟨1, _⟩ => show win0_1.index t 1 * 4 + 1 * (j 1).val = (j 1).val; rw [(idx_in1 t).2]; omega

/-- Block s's q-th sum (zero past the last block: the grid has 40). -/
def bsum (c : Dev nD) (q : Fin 4) (s : ℕ) : EReal :=
  if hs : s < 40 then sums (blockOf h40 (m ((c : Thread nD τ).loc main_arg0)) ⟨s, hs⟩) (blockOf h40 (m ((c : Thread nD τ).loc main_arg1)) ⟨s, hs⟩) q else 0

theorem bsum_blk (c : Dev nD) (q : Fin 4) (t : Fin cfg0.N) :
    sums (iblk m c 0 t : Vec Ideal S200000x4 .f32) (iblk m c 1 t : Vec Ideal S200000x4 .f32) q = bsum m c q t.val := by
  rw [iblk0_eq, iblk1_eq]
  unfold bsum
  rw [dif_pos (lt_of_lt_of_eq t.isLt N_0)]
  rfl

/-- After point n the accumulator's entry q is the sum of the q-th sums of blocks 0 … n. -/
theorem outsAt_entry (c : Dev nD) (q : Fin 4) : ∀ (n : ℕ) (h : n < cfg0.N),
    outsAt0 m c n h (ix2 0 q) = ∑ s ∈ Finset.range (n + 1), bsum m c q s
  | 0, h => by
    have e : outsAt0 m c 0 h = step (iblk m c 0 ⟨0, h⟩) (iblk m c 1 ⟨0, h⟩) (k0_pay2 (F := Ideal)) :=
      (outsAt0_A m c ⟨0, h⟩ rfl).trans (Cert.KernelIdeal.Blocks.out_A c _ _ _ _ _ _ _ _ (iblk m c 0 ⟨0, h⟩) (iblk m c 1 ⟨0, h⟩))
    rw [e, step_apply (iblk m c 0 ⟨0, h⟩) (iblk m c 1 ⟨0, h⟩) (k0_pay2 (F := Ideal)) q, bsum_blk m c q ⟨0, h⟩, Finset.sum_range_one]
    show zero + bsum m c q 0 = bsum m c q 0
    rw [zero_eq, zero_add]
  | n + 1, h => by
    have hN : cfg0.N = 40 := N_0
    have hB : ¬(⟨n + 1, h⟩ : Fin cfg0.N).val % 40 = 0 := by dsimp only; omega
    have e : outsAt0 m c (n + 1) h = step (iblk m c 0 ⟨n + 1, h⟩) (iblk m c 1 ⟨n + 1, h⟩) (outsAt0 m c n (Nat.lt_of_succ_lt h)) :=
      (outsAt0_B m c ⟨n + 1, h⟩ hB).trans (Cert.KernelIdeal.Blocks.out_B c _ _ _ _ _ _ _ _ (iblk m c 0 ⟨n + 1, h⟩) (iblk m c 1 ⟨n + 1, h⟩) _)
    rw [e, step_apply (iblk m c 0 ⟨n + 1, h⟩) (iblk m c 1 ⟨n + 1, h⟩) _ q, bsum_blk m c q ⟨n + 1, h⟩, outsAt_entry c q n,
      Finset.sum_range_succ (n := n + 1)]

theorem lt39 : 39 < cfg0.N := by rw [show cfg0.N = 40 from N_0]; decide

/-- The last grid point. -/
abbrev tLast : Fin cfg0.N := ⟨39, lt39⟩

/-- What the accumulator holds after the last point: the array the region writes back. -/
abbrev result (c : Dev nD) : Vec Ideal S1x4 .f32 := outsAt0 m c 39 lt39

/-- Its entry q is the q-th sum over all 8000000 rows. -/
theorem result_entry (c : Dev nD) (q : Fin 4) :
    result m c (ix2 0 q) = sums (m ((c : Thread nD τ).loc main_arg0)) (m ((c : Thread nD τ).loc main_arg1)) q := by
  unfold result
  rw [outsAt_entry m c q 39 lt39, sums_blocks h40, Finset.sum_range]
  exact Finset.sum_congr rfl fun t _ => dif_pos t.isLt

/-- The one write-back, at the last point, writes the accumulator: block (0, 0) of the 1 × 4 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 40 := N_0
  have h39 : t.val = 39 := by have := (flush0_2 t).mp hf; have := t.isLt; omega
  obtain rfl : t = tLast := Fin.ext h39
  show (cfg0.win 2).cut (grid0.coords tLast) ((dats m 0 c).after 2 tLast) = _
  rw [after0_2]
  have hz' : (fun a => win0_2.index tLast a * main_call0_v0.ty.shape.size a) = fun _ => 0 := funext fun a => by fin_cases a <;> decide +kernel
  exact (Memref.read_access_unit_zero (Elt Ideal) main_call0_v0 hz' (fun a => by rw [congrFun hz' a]; simp) (result m c)).symm

/-- So the result array of the region ends holding the accumulator after the last point. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_call0_v0).slice (win0_2.rect tLast)).set
      rw [View.set_slice_whole, Rect.mem_set_unit]
      intro a
      have h0 : (i 0 : Nat) < 1 := (i 0).isLt
      have h1 : (i 1 : Nat) < 4 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]
        omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 4 from by decide +kernel]
        omega⟩

end Cert.KernelIdeal.Acc

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.RefRunValue.lean ====
/-
  The reference's run, read stage by stage.

  The reference is a straight line of 144 host operations in single-assignment form: each writes one buffer of its
  own, from buffers written earlier or from the two argument arrays, and no buffer is written twice. So after the
  whole line the buffer an operation writes holds that operation's function of what the buffers it reads hold after
  the whole line. Going down the line once, every buffer is the corresponding stage, a function of the two argument
  arrays alone; the last one is the result. The arguments are written by no operation and end as they began.
-/
import proofs.«174585_j15187004359196_1_alg».proof.Proof.RefRun
import proofs.«174585_j15187004359196_1_alg».proof.Proof.RefRead
import proofs.«174585_j15187004359196_1_alg».proof.Proof.LibStageRead

noncomputable section

namespace Cert.ReferenceIdeal.RunValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The buffers the line writes, operation by operation. -/
def dsts : List (Ref sig .tc) :=
  [ main_v0, main_v1, main_v2, main_v3, main_cst, main_v4, main_v5, main_v6,
    main_v7, main_v8, main_v9, main_v10, main_cst_0, main_v11, main_v12, main_v13,
    main_v14, main_v15, main_v16, main_v17, main_cst_1, main_v18, main_v19, main_v20,
    main_v21, main_v22, main_v23, main_v24, main_cst_2, main_v25, main_v26, main_v27,
    main_v28, main_v29, main_v30, main_v31, main_cst_3, main_v32, main_v33, main_v34,
    main_cst_4, main_v35, main_v36, main_v37, main_v38, main_v39, main_v40, main_cst_5,
    main_v41, main_v42, main_v43, main_cst_6, main_v44, main_v45, main_v46, main_v47,
    main_v48, main_v49, main_cst_7, main_v50, main_v51, main_v52, main_cst_8, main_v53,
    main_v54, main_v55, main_v56, main_v57, main_v58, main_cst_9, main_v59, main_v60,
    main_v61, main_cst_10, main_v62, main_v63, main_v64, main_v65, main_v66, main_v67,
    main_v68, main_v69, main_v70, main_v71, main_v72, main_c, main_v73, main_v74,
    main_c_11, main_v75, main_v76, main_v77, main_v78, main_v79, main_v80, main_v81,
    main_cst_12, main_v82, main_c_13, main_v83, main_c_14, main_v84, main_v85, main_v86,
    main_v87, main_v88, main_v89, main_v90, main_v91, main_v92, main_v93, main_v94,
    main_v95, main_v96, main_v97, main_v98, main_v99, main_v100, main_v101, main_cst_15,
    main_v102, main_v103, main_v104, main_cst_16, main_call0_v0, main_call0_v1, main_v105, main_cst_17,
    main_v106, main_c_18, main_v107, main_v108, main_v109, main_c_19, main_v110, main_v111,
    main_cst_20, main_call1_v0, main_v112, main_v113, main_c_21, main_v114, main_v115, main_v116 ]

/-- Each operation writes the one buffer listed for it. -/
theorem hW : WritesAre (ops (F := F)) dsts := by
  unfold dsts
  repeat' (first | exact List.Forall₂.nil | refine List.Forall₂.cons (Finset.Subset.refl _) ?_)

/-- The argument arrays are written by no operation. -/
theorem st_main_arg0 (V : Valuation τ sig (Elt F)) : after (ops (F := F)) V (Proc.devRef .tc main_arg0) = V (Proc.devRef .tc main_arg0) := by
  rw [after_keep_from hW 0 (by decide) V]; rfl
theorem st_main_arg1 (V : Valuation τ sig (Elt F)) : after (ops (F := F)) V (Proc.devRef .tc main_arg1) = V (Proc.devRef .tc main_arg1) := by
  rw [after_keep_from hW 0 (by decide) V]; rfl

/-! ## The stages, down the line -/

theorem st_main_v0 (V : Valuation τ sig (Elt F)) :
    after (ops (F := F)) V (Proc.devRef .tc main_v0) = ReadP.val_main_v0 (F := F) (V (Proc.devRef .tc main_arg1)) := by
  rw [read_unary hW 0 V (x := main_arg1) (y := main_v0) rfl (by decide) (by decide), st_main_arg1]
  rfl
theorem st_main_v1 (V : Valuation τ sig (Elt F)) :
    after (ops (F := F)) V (Proc.devRef .tc main_v1) = ReadP.val_main_v1 (F := F) (V (Proc.devRef .tc main_arg1)) := by
  rw [read_reshape hW 1 V (x := main_v0) (y := main_v1) rfl (by decide) (by decide), st_main_v0]
  rfl
theorem st_main_v2 (V : Valuation τ sig (Elt F)) :
    after (ops (F := F)) V (Proc.devRef .tc main_v2) = ReadP.val_main_v2 (F := F) (V (Proc.devRef .tc main_arg1)) := by
  rw [read_unary hW 2 V (x := main_arg1) (y := main_v2) rfl (by decide) (by decide), st_main_arg1]
  rfl
theorem st_main_v3 (V : Valuation τ sig (Elt F)) :
    after (ops (F := F)) V (Proc.devRef .tc main_v3) = ReadP.val_main_v3 (F := F) (V (Proc.devRef .tc main_arg1)) := by
  rw [read_reshape hW 3 V (x := main_v2) (y := main_v3) rfl (by decide) (by decide), st_main_v2]
  rfl
theorem st_main_cst (V : Valuation τ sig (Elt F)) :
    after (ops (F := F)) V (Proc.devRef .tc main_cst) = ReadP.val_main_cst (F := F) := by
  rw [read_nullary hW 4 V (y := main_cst) rfl (by decide)]
  rfl
theorem st_main_v4 (V : Valuation τ sig (Elt F)) :
    after (ops (F := F)) V (Proc.devRef .tc main_v4) = ReadP.val_main_v4 (F := F) := by
  rw [read_unary hW 5 V (x := main_cst) (y := main_v4) rfl (by decide) (by decide), st_main_cst]
  rfl
theorem st_main_v5 (V : Valuation τ sig (Elt F)) :
    after (ops (F := F)) V (Proc.devRef .tc main_v5) = ReadP.val_main_v5 (F := F) (V (Proc.devRef .tc main_arg1)) := by
  rw [read_binary hW 6 V (a := main_v3) (b := main_v4) (y := main_v5) rfl (by decide) (by decide) (by decide), st_main_v3, st_main_v4]
  rfl
theorem st_main_v6 (V : Valuation τ sig (Elt F)) :
    after (ops (F := F)) V (Proc.devRef .tc main_v6) = ReadP.val_main_v6 (F := F) (V (Proc.devRef .tc main_arg1)) := by
  rw [read_binary hW 7 V (a := main_v1) (b := main_v5) (y := main_v6) rfl (by decide) (by decide) (by decide), st_main_v1, st_main_v5]
  rfl
theorem st_main_v7 (V : Valuation τ sig (Elt F)) :
    after (ops (F := F)) V (Proc.devRef .tc main_v7) = ReadP.val_main_v7 (F := F) (V (Proc.devRef .tc main_arg1)) := by
  rw [read_unary hW 8 V (x := main_arg1) (y := main_v7) rfl (by decide) (by decide), st_main_arg1]
  rfl
theorem st_main_v8 (V : Valuation τ sig (Elt F)) :
    after (ops (F := F)) V (Proc.devRef .tc main_v8) = ReadP.val_main_v8 (F := F) (V (Proc.devRef .tc main_arg1)) := by
  rw [read_reshape hW 9 V (x := main_v7) (y := main_v8) rfl (by decide) (by decide), st_main_v7]
  rfl
theorem st_main_v9 (V : Valuation τ sig (Elt F)) :
    after (ops (F := F)) V (Proc.devRef .tc main_v9) = ReadP.val_main_v9 (F := F) (V (Proc.devRef .tc main_arg1)) := by
  rw [read_unary hW 10 V (x := main_arg1) (y := main_v9) rfl (by decide) (by decide), st_main_arg1]
  rfl
theorem st_main_v10 (V : Valuation τ sig (Elt F)) :
    after (ops (F := F)) V (Proc.devRef .tc main_v10) = ReadP.val_main_v10 (F := F) (V (Proc.devRef .tc main_arg1)) := by
  rw [read_reshape hW 11 V (x := main_v9) (y := main_v10) rfl (by decide) (by decide), st_main_v9]
  rfl
theorem st_main_cst_0 (V : Valuation τ sig (Elt F)) :
    after (ops (F := F)) V (Proc.devRef .tc main_cst_0) = ReadP.val_main_cst_0 (F := F) := by
  rw [read_nullary hW 12 V (y := main_cst_0) rfl (by decide)]
  rfl
theorem st_main_v11 (V : Valuation τ sig (Elt F)) :
    after (ops (F := F)) V (Proc.devRef .tc main_v11) = ReadP.val_main_v11 (F := F) := by
  rw [read_unary hW 13 V (x := main_cst_0) (y := main_v11) rfl (by decide) (by decide), st_main_cst_0]
  rfl
theorem st_main_v12 (V : Valuation τ sig (Elt F)) :
    after (ops (F := F)) V (Proc.devRef .tc main_v12) = ReadP.val_main_v12 (F := F) (V (Proc.devRef .tc main_arg1)) := by
  rw [read_binary hW 14 V (a := main_v10) (b := main_v11) (y := main_v12) rfl (by decide) (by decide) (by decide), st_main_v10, st_main_v11]
  rfl
theorem st_main_v13 (V : Valuation τ sig (Elt F)) :
    after (ops (F := F)) V (Proc.devRef .tc main_v13) = ReadP.val_main_v13 (F := F) (V (Proc.devRef .tc main_arg1)) := by
  rw [read_binary hW 15 V (a := main_v8) (b := main_v12) (y := main_v13) rfl (by decide) (by decide) (by decide), st_main_v8, st_main_v12]
  rfl
theorem st_main_v14 (V : Valuation τ sig (Elt F)) :
    after (ops (F := F)) V (Proc.devRef .tc main_v14) = ReadP.val_main_v14 (F := F) (V (Proc.devRef .tc main_arg1)) := by
  rw [read_unary hW 16 V (x := main_arg1) (y := main_v14) rfl (by decide) (by decide), st_main_arg1]
  rfl
theorem st_main_v15 (V : Valuation τ sig (Elt F)) :
    after (ops (F := F)) V (Proc.devRef .tc main_v15) = ReadP.val_main_v15 (F := F) (V (Proc.devRef .tc main_arg1)) := by
  rw [read_reshape hW 17 V (x := main_v14) (y := main_v15) rfl (by decide) (by decide), st_main_v14]
  rfl
theorem st_main_v16 (V : Valuation τ sig (Elt F)) :
    after (ops (F := F)) V (Proc.devRef .tc main_v16) = ReadP.val_main_v16 (F := F) (V (Proc.devRef .tc main_arg1)) := by
  rw [read_unary hW 18 V (x := main_arg1) (y := main_v16) rfl (by decide) (by decide), st_main_arg1]
  rfl
theorem st_main_v17 (V : Valuation τ sig (Elt F)) :
    after (ops (F := F)) V (Proc.devRef .tc main_v17) = ReadP.val_main_v17 (F := F) (V (Proc.devRef .tc main_arg1)) := by
  rw [read_reshape hW 19 V (x := main_v16) (y := main_v17) rfl (by decide) (by decide), st_main_v16]
  rfl
theorem st_main_cst_1 (V : Valuation τ sig (Elt F)) :
    after (ops (F := F)) V (Proc.devRef .tc main_cst_1) = ReadP.val_main_cst_1 (F := F) := by
  rw [read_nullary hW 20 V (y := main_cst_1) rfl (by decide)]
  rfl
theorem st_main_v18 (V : Valuation τ sig (Elt F)) :
    after (ops (F := F)) V (Proc.devRef .tc main_v18) = ReadP.val_main_v18 (F := F) := by
  rw [read_unary hW 21 V (x := main_cst_1) (y := main_v18) rfl (by decide) (by decide), st_main_cst_1]
  rfl
theorem st_main_v19 (V : Valuation τ sig (Elt F)) :
    after (ops (F := F)) V (Proc.devRef .tc main_v19) = ReadP.val_main_v19 (F := F) (V (Proc.devRef .tc main_arg1)) := by
  rw [read_binary hW 22 V (a := main_v17) (b := main_v18) (y := main_v19) rfl (by decide) (by decide) (by decide), st_main_v17, st_main_v18]
  rfl
theorem st_main_v20 (V : Valuation τ sig (Elt F)) :
    after (ops (F := F)) V (Proc.devRef .tc main_v20) = ReadP.val_main_v20 (F := F) (V (Proc.devRef .tc main_arg1)) := by
  rw [read_binary hW 23 V (a := main_v15) (b := main_v19) (y := main_v20) rfl (by decide) (by decide) (by decide), st_main_v15, st_main_v19]
  rfl
theorem st_main_v21 (V : Valuation τ sig (Elt F)) :
    after (ops (F := F)) V (Proc.devRef .tc main_v21) = ReadP.val_main_v21 (F := F) (V (Proc.devRef .tc main_arg1)) := by
  rw [read_unary hW 24 V (x := main_arg1) (y := main_v21) rfl (by decide) (by decide), st_main_arg1]
  rfl
theorem st_main_v22 (V : Valuation τ sig (Elt F)) :
    after (ops (F := F)) V (Proc.devRef .tc main_v22) = ReadP.val_main_v22 (F := F) (V (Proc.devRef .tc main_arg1)) := by
  rw [read_reshape hW 25 V (x := main_v21) (y := main_v22) rfl (by decide) (by decide), st_main_v21]
  rfl
theorem st_main_v23 (V : Valuation τ sig (Elt F)) :
    after (ops (F := F)) V (Proc.devRef .tc main_v23) = ReadP.val_main_v23 (F := F) (V (Proc.devRef .tc main_arg1)) := by
  rw [read_unary hW 26 V (x := main_arg1) (y := main_v23) rfl (by decide) (by decide), st_main_arg1]
  rfl
theorem st_main_v24 (V : Valuation τ sig (Elt F)) :
    after (ops (F := F)) V (Proc.devRef .tc main_v24) = ReadP.val_main_v24 (F := F) (V (Proc.devRef .tc main_arg1)) := by
  rw [read_reshape hW 27 V (x := main_v23) (y := main_v24) rfl (by decide) (by decide), st_main_v23]
  rfl
theorem st_main_cst_2 (V : Valuation τ sig (Elt F)) :
    after (ops (F := F)) V (Proc.devRef .tc main_cst_2) = ReadP.val_main_cst_2 (F := F) := by
  rw [read_nullary hW 28 V (y := main_cst_2) rfl (by decide)]
  rfl
theorem st_main_v25 (V : Valuation τ sig (Elt F)) :
    after (ops (F := F)) V (Proc.devRef .tc main_v25) = ReadP.val_main_v25 (F := F) := by
  rw [read_unary hW 29 V (x := main_cst_2) (y := main_v25) rfl (by decide) (by decide), st_main_cst_2]
  rfl
theorem st_main_v26 (V : Valuation τ sig (Elt F)) :
    after (ops (F := F)) V (Proc.devRef .tc main_v26) = ReadP.val_main_v26 (F := F) (V (Proc.devRef .tc main_arg1)) := by
  rw [read_binary hW 30 V (a := main_v24) (b := main_v25) (y := main_v26) rfl (by decide) (by decide) (by decide), st_main_v24, st_main_v25]
  rfl
theorem st_main_v27 (V : Valuation τ sig (Elt F)) :
    after (ops (F := F)) V (Proc.devRef .tc main_v27) = ReadP.val_main_v27 (F := F) (V (Proc.devRef .tc main_arg1)) := by
  rw [read_binary hW 31 V (a := main_v22) (b := main_v26) (y := main_v27) rfl (by decide) (by decide) (by decide), st_main_v22, st_main_v26]
  rfl
theorem st_main_v28 (V : Valuation τ sig (Elt F)) :
    after (ops (F := F)) V (Proc.devRef .tc main_v28) = ReadP.val_main_v28 (F := F) (V (Proc.devRef .tc main_arg0)) := by
  rw [read_unary hW 32 V (x := main_arg0) (y := main_v28) rfl (by decide) (by decide), st_main_arg0]
  rfl
theorem st_main_v29 (V : Valuation τ sig (Elt F)) :
    after (ops (F := F)) V (Proc.devRef .tc main_v29) = ReadP.val_main_v29 (F := F) (V (Proc.devRef .tc main_arg0)) := by
  rw [read_reshape hW 33 V (x := main_v28) (y := main_v29) rfl (by decide) (by decide), st_main_v28]
  rfl
theorem st_main_v30 (V : Valuation τ sig (Elt F)) :
    after (ops (F := F)) V (Proc.devRef .tc main_v30) = ReadP.val_main_v30 (F := F) (V (Proc.devRef .tc main_arg0)) := by
  rw [read_unary hW 34 V (x := main_arg0) (y := main_v30) rfl (by decide) (by decide), st_main_arg0]
  rfl
theorem st_main_v31 (V : Valuation τ sig (Elt F)) :
    after (ops (F := F)) V (Proc.devRef .tc main_v31) = ReadP.val_main_v31 (F := F) (V (Proc.devRef .tc main_arg0)) := by
  rw [read_reshape hW 35 V (x := main_v30) (y := main_v31) rfl (by decide) (by decide), st_main_v30]
  rfl
theorem st_main_cst_3 (V : Valuation τ sig (Elt F)) :
    after (ops (F := F)) V (Proc.devRef .tc main_cst_3) = ReadP.val_main_cst_3 (F := F) := by
  rw [read_nullary hW 36 V (y := main_cst_3) rfl (by decide)]
  rfl
theorem st_main_v32 (V : Valuation τ sig (Elt F)) :
    after (ops (F := F)) V (Proc.devRef .tc main_v32) = ReadP.val_main_v32 (F := F) := by
  rw [read_unary hW 37 V (x := main_cst_3) (y := main_v32) rfl (by decide) (by decide), st_main_cst_3]
  rfl
theorem st_main_v33 (V : Valuation τ sig (Elt F)) :
    after (ops (F := F)) V (Proc.devRef .tc main_v33) = ReadP.val_main_v33 (F := F) (V (Proc.devRef .tc main_arg0)) := by
  rw [read_binary hW 38 V (a := main_v31) (b := main_v32) (y := main_v33) rfl (by decide) (by decide) (by decide), st_main_v31, st_main_v32]
  rfl
theorem st_main_v34 (V : Valuation τ sig (Elt F)) :
    after (ops (F := F)) V (Proc.devRef .tc main_v34) = ReadP.val_main_v34 (F := F) (V (Proc.devRef .tc main_arg0)) := by
  rw [read_binary hW 39 V (a := main_v29) (b := main_v33) (y := main_v34) rfl (by decide) (by decide) (by decide), st_main_v29, st_main_v33]
  rfl
theorem st_main_cst_4 (V : Valuation τ sig (Elt F)) :
    after (ops (F := F)) V (Proc.devRef .tc main_cst_4) = ReadP.val_main_cst_4 (F := F) := by
  rw [read_nullary hW 40 V (y := main_cst_4) rfl (by decide)]
  rfl
theorem st_main_v35 (V : Valuation τ sig (Elt F)) :
    after (ops (F := F)) V (Proc.devRef .tc main_v35) = ReadP.val_main_v35 (F := F) := by
  rw [read_unary hW 41 V (x := main_cst_4) (y := main_v35) rfl (by decide) (by decide), st_main_cst_4]
  rfl
theorem st_main_v36 (V : Valuation τ sig (Elt F)) :
    after (ops (F := F)) V (Proc.devRef .tc main_v36) = ReadP.val_main_v36 (F := F) (V (Proc.devRef .tc main_arg0)) := by
  rw [read_binary hW 42 V (a := main_v34) (b := main_v35) (y := main_v36) rfl (by decide) (by decide) (by decide), st_main_v34, st_main_v35]
  rfl
theorem st_main_v37 (V : Valuation τ sig (Elt F)) :
    after (ops (F := F)) V (Proc.devRef .tc main_v37) = ReadP.val_main_v37 (F := F) (V (Proc.devRef .tc main_arg0)) := by
  rw [read_unary hW 43 V (x := main_arg0) (y := main_v37) rfl (by decide) (by decide), st_main_arg0]
  rfl
theorem st_main_v38 (V : Valuation τ sig (Elt F)) :
    after (ops (F := F)) V (Proc.devRef .tc main_v38) = ReadP.val_main_v38 (F := F) (V (Proc.devRef .tc main_arg0)) := by
  rw [read_reshape hW 44 V (x := main_v37) (y := main_v38) rfl (by decide) (by decide), st_main_v37]
  rfl
theorem st_main_v39 (V : Valuation τ sig (Elt F)) :
    after (ops (F := F)) V (Proc.devRef .tc main_v39) = ReadP.val_main_v39 (F := F) (V (Proc.devRef .tc main_arg0)) := by
  rw [read_unary hW 45 V (x := main_arg0) (y := main_v39) rfl (by decide) (by decide), st_main_arg0]
  rfl
theorem st_main_v40 (V : Valuation τ sig (Elt F)) :
    after (ops (F := F)) V (Proc.devRef .tc main_v40) = ReadP.val_main_v40 (F := F) (V (Proc.devRef .tc main_arg0)) := by
  rw [read_reshape hW 46 V (x := main_v39) (y := main_v40) rfl (by decide) (by decide), st_main_v39]
  rfl
theorem st_main_cst_5 (V : Valuation τ sig (Elt F)) :
    after (ops (F := F)) V (Proc.devRef .tc main_cst_5) = ReadP.val_main_cst_5 (F := F) := by
  rw [read_nullary hW 47 V (y := main_cst_5) rfl (by decide)]
  rfl
theorem st_main_v41 (V : Valuation τ sig (Elt F)) :
    after (ops (F := F)) V (Proc.devRef .tc main_v41) = ReadP.val_main_v41 (F := F) := by
  rw [read_unary hW 48 V (x := main_cst_5) (y := main_v41) rfl (by decide) (by decide), st_main_cst_5]
  rfl
theorem st_main_v42 (V : Valuation τ sig (Elt F)) :
    after (ops (F := F)) V (Proc.devRef .tc main_v42) = ReadP.val_main_v42 (F := F) (V (Proc.devRef .tc main_arg0)) := by
  rw [read_binary hW 49 V (a := main_v40) (b := main_v41) (y := main_v42) rfl (by decide) (by decide) (by decide), st_main_v40, st_main_v41]
  rfl
theorem st_main_v43 (V : Valuation τ sig (Elt F)) :
    after (ops (F := F)) V (Proc.devRef .tc main_v43) = ReadP.val_main_v43 (F := F) (V (Proc.devRef .tc main_arg0)) := by
  rw [read_binary hW 50 V (a := main_v38) (b := main_v42) (y := main_v43) rfl (by decide) (by decide) (by decide), st_main_v38, st_main_v42]
  rfl
theorem st_main_cst_6 (V : Valuation τ sig (Elt F)) :
    after (ops (F := F)) V (Proc.devRef .tc main_cst_6) = ReadP.val_main_cst_6 (F := F) := by
  rw [read_nullary hW 51 V (y := main_cst_6) rfl (by decide)]
  rfl
theorem st_main_v44 (V : Valuation τ sig (Elt F)) :
    after (ops (F := F)) V (Proc.devRef .tc main_v44) = ReadP.val_main_v44 (F := F) := by
  rw [read_unary hW 52 V (x := main_cst_6) (y := main_v44) rfl (by decide) (by decide), st_main_cst_6]
  rfl
theorem st_main_v45 (V : Valuation τ sig (Elt F)) :
    after (ops (F := F)) V (Proc.devRef .tc main_v45) = ReadP.val_main_v45 (F := F) (V (Proc.devRef .tc main_arg0)) := by
  rw [read_binary hW 53 V (a := main_v43) (b := main_v44) (y := main_v45) rfl (by decide) (by decide) (by decide), st_main_v43, st_main_v44]
  rfl
theorem st_main_v46 (V : Valuation τ sig (Elt F)) :
    after (ops (F := F)) V (Proc.devRef .tc main_v46) = ReadP.val_main_v46 (F := F) (V (Proc.devRef .tc main_arg0)) := by
  rw [read_unary hW 54 V (x := main_arg0) (y := main_v46) rfl (by decide) (by decide), st_main_arg0]
  rfl
theorem st_main_v47 (V : Valuation τ sig (Elt F)) :
    after (ops (F := F)) V (Proc.devRef .tc main_v47) = ReadP.val_main_v47 (F := F) (V (Proc.devRef .tc main_arg0)) := by
  rw [read_reshape hW 55 V (x := main_v46) (y := main_v47) rfl (by decide) (by decide), st_main_v46]
  rfl
theorem st_main_v48 (V : Valuation τ sig (Elt F)) :
    after (ops (F := F)) V (Proc.devRef .tc main_v48) = ReadP.val_main_v48 (F := F) (V (Proc.devRef .tc main_arg0)) := by
  rw [read_unary hW 56 V (x := main_arg0) (y := main_v48) rfl (by decide) (by decide), st_main_arg0]
  rfl
theorem st_main_v49 (V : Valuation τ sig (Elt F)) :
    after (ops (F := F)) V (Proc.devRef .tc main_v49) = ReadP.val_main_v49 (F := F) (V (Proc.devRef .tc main_arg0)) := by
  rw [read_reshape hW 57 V (x := main_v48) (y := main_v49) rfl (by decide) (by decide), st_main_v48]
  rfl
theorem st_main_cst_7 (V : Valuation τ sig (Elt F)) :
    after (ops (F := F)) V (Proc.devRef .tc main_cst_7) = ReadP.val_main_cst_7 (F := F) := by
  rw [read_nullary hW 58 V (y := main_cst_7) rfl (by decide)]
  rfl
theorem st_main_v50 (V : Valuation τ sig (Elt F)) :
    after (ops (F := F)) V (Proc.devRef .tc main_v50) = ReadP.val_main_v50 (F := F) := by
  rw [read_unary hW 59 V (x := main_cst_7) (y := main_v50) rfl (by decide) (by decide), st_main_cst_7]
  rfl
theorem st_main_v51 (V : Valuation τ sig (Elt F)) :
    after (ops (F := F)) V (Proc.devRef .tc main_v51) = ReadP.val_main_v51 (F := F) (V (Proc.devRef .tc main_arg0)) := by
  rw [read_binary hW 60 V (a := main_v49) (b := main_v50) (y := main_v51) rfl (by decide) (by decide) (by decide), st_main_v49, st_main_v50]
  rfl
theorem st_main_v52 (V : Valuation τ sig (Elt F)) :
    after (ops (F := F)) V (Proc.devRef .tc main_v52) = ReadP.val_main_v52 (F := F) (V (Proc.devRef .tc main_arg0)) := by
  rw [read_binary hW 61 V (a := main_v47) (b := main_v51) (y := main_v52) rfl (by decide) (by decide) (by decide), st_main_v47, st_main_v51]
  rfl
theorem st_main_cst_8 (V : Valuation τ sig (Elt F)) :
    after (ops (F := F)) V (Proc.devRef .tc main_cst_8) = ReadP.val_main_cst_8 (F := F) := by
  rw [read_nullary hW 62 V (y := main_cst_8) rfl (by decide)]
  rfl
theorem st_main_v53 (V : Valuation τ sig (Elt F)) :
    after (ops (F := F)) V (Proc.devRef .tc main_v53) = ReadP.val_main_v53 (F := F) := by
  rw [read_unary hW 63 V (x := main_cst_8) (y := main_v53) rfl (by decide) (by decide), st_main_cst_8]
  rfl
theorem st_main_v54 (V : Valuation τ sig (Elt F)) :
    after (ops (F := F)) V (Proc.devRef .tc main_v54) = ReadP.val_main_v54 (F := F) (V (Proc.devRef .tc main_arg0)) := by
  rw [read_binary hW 64 V (a := main_v52) (b := main_v53) (y := main_v54) rfl (by decide) (by decide) (by decide), st_main_v52, st_main_v53]
  rfl
theorem st_main_v55 (V : Valuation τ sig (Elt F)) :
    after (ops (F := F)) V (Proc.devRef .tc main_v55) = ReadP.val_main_v55 (F := F) (V (Proc.devRef .tc main_arg0)) := by
  rw [read_unary hW 65 V (x := main_arg0) (y := main_v55) rfl (by decide) (by decide), st_main_arg0]
  rfl
theorem st_main_v56 (V : Valuation τ sig (Elt F)) :
    after (ops (F := F)) V (Proc.devRef .tc main_v56) = ReadP.val_main_v56 (F := F) (V (Proc.devRef .tc main_arg0)) := by
  rw [read_reshape hW 66 V (x := main_v55) (y := main_v56) rfl (by decide) (by decide), st_main_v55]
  rfl
theorem st_main_v57 (V : Valuation τ sig (Elt F)) :
    after (ops (F := F)) V (Proc.devRef .tc main_v57) = ReadP.val_main_v57 (F := F) (V (Proc.devRef .tc main_arg0)) := by
  rw [read_unary hW 67 V (x := main_arg0) (y := main_v57) rfl (by decide) (by decide), st_main_arg0]
  rfl
theorem st_main_v58 (V : Valuation τ sig (Elt F)) :
    after (ops (F := F)) V (Proc.devRef .tc main_v58) = ReadP.val_main_v58 (F := F) (V (Proc.devRef .tc main_arg0)) := by
  rw [read_reshape hW 68 V (x := main_v57) (y := main_v58) rfl (by decide) (by decide), st_main_v57]
  rfl
theorem st_main_cst_9 (V : Valuation τ sig (Elt F)) :
    after (ops (F := F)) V (Proc.devRef .tc main_cst_9) = ReadP.val_main_cst_9 (F := F) := by
  rw [read_nullary hW 69 V (y := main_cst_9) rfl (by decide)]
  rfl
theorem st_main_v59 (V : Valuation τ sig (Elt F)) :
    after (ops (F := F)) V (Proc.devRef .tc main_v59) = ReadP.val_main_v59 (F := F) := by
  rw [read_unary hW 70 V (x := main_cst_9) (y := main_v59) rfl (by decide) (by decide), st_main_cst_9]
  rfl
theorem st_main_v60 (V : Valuation τ sig (Elt F)) :
    after (ops (F := F)) V (Proc.devRef .tc main_v60) = ReadP.val_main_v60 (F := F) (V (Proc.devRef .tc main_arg0)) := by
  rw [read_binary hW 71 V (a := main_v58) (b := main_v59) (y := main_v60) rfl (by decide) (by decide) (by decide), st_main_v58, st_main_v59]
  rfl
theorem st_main_v61 (V : Valuation τ sig (Elt F)) :
    after (ops (F := F)) V (Proc.devRef .tc main_v61) = ReadP.val_main_v61 (F := F) (V (Proc.devRef .tc main_arg0)) := by
  rw [read_binary hW 72 V (a := main_v56) (b := main_v60) (y := main_v61) rfl (by decide) (by decide) (by decide), st_main_v56, st_main_v60]
  rfl
theorem st_main_cst_10 (V : Valuation τ sig (Elt F)) :
    after (ops (F := F)) V (Proc.devRef .tc main_cst_10) = ReadP.val_main_cst_10 (F := F) := by
  rw [read_nullary hW 73 V (y := main_cst_10) rfl (by decide)]
  rfl
theorem st_main_v62 (V : Valuation τ sig (Elt F)) :
    after (ops (F := F)) V (Proc.devRef .tc main_v62) = ReadP.val_main_v62 (F := F) := by
  rw [read_unary hW 74 V (x := main_cst_10) (y := main_v62) rfl (by decide) (by decide), st_main_cst_10]
  rfl
theorem st_main_v63 (V : Valuation τ sig (Elt F)) :
    after (ops (F := F)) V (Proc.devRef .tc main_v63) = ReadP.val_main_v63 (F := F) (V (Proc.devRef .tc main_arg0)) := by
  rw [read_binary hW 75 V (a := main_v61) (b := main_v62) (y := main_v63) rfl (by decide) (by decide) (by decide), st_main_v61, st_main_v62]
  rfl
theorem st_main_v64 (V : Valuation τ sig (Elt F)) :
    after (ops (F := F)) V (Proc.devRef .tc main_v64) = ReadP.val_main_v64 (F := F) (V (Proc.devRef .tc main_arg0)) (V (Proc.devRef .tc main_arg1)) := by
  rw [read_binary hW 76 V (a := main_v6) (b := main_v36) (y := main_v64) rfl (by decide) (by decide) (by decide), st_main_v6, st_main_v36]
  rfl
theorem st_main_v65 (V : Valuation τ sig (Elt F)) :
    after (ops (F := F)) V (Proc.devRef .tc main_v65) = ReadP.val_main_v65 (F := F) (V (Proc.devRef .tc main_arg0)) (V (Proc.devRef .tc main_arg1)) := by
  rw [read_binary hW 77 V (a := main_v20) (b := main_v54) (y := main_v65) rfl (by decide) (by decide) (by decide), st_main_v20, st_main_v54]
  rfl
theorem st_main_v66 (V : Valuation τ sig (Elt F)) :
    after (ops (F := F)) V (Proc.devRef .tc main_v66) = ReadP.val_main_v66 (F := F) (V (Proc.devRef .tc main_arg0)) (V (Proc.devRef .tc main_arg1)) := by
  rw [read_binary hW 78 V (a := main_v13) (b := main_v45) (y := main_v66) rfl (by decide) (by decide) (by decide), st_main_v13, st_main_v45]
  rfl
theorem st_main_v67 (V : Valuation τ sig (Elt F)) :
    after (ops (F := F)) V (Proc.devRef .tc main_v67) = ReadP.val_main_v67 (F := F) (V (Proc.devRef .tc main_arg0)) (V (Proc.devRef .tc main_arg1)) := by
  rw [read_binary hW 79 V (a := main_v27) (b := main_v63) (y := main_v67) rfl (by decide) (by decide) (by decide), st_main_v27, st_main_v63]
  rfl
theorem st_main_v68 (V : Valuation τ sig (Elt F)) :
    after (ops (F := F)) V (Proc.devRef .tc main_v68) = ReadP.val_main_v68 (F := F) (V (Proc.devRef .tc main_arg0)) (V (Proc.devRef .tc main_arg1)) := by
  rw [read_binary hW 80 V (a := main_v66) (b := main_v64) (y := main_v68) rfl (by decide) (by decide) (by decide), st_main_v66, st_main_v64]
  rfl
theorem st_main_v69 (V : Valuation τ sig (Elt F)) :
    after (ops (F := F)) V (Proc.devRef .tc main_v69) = ReadP.val_main_v69 (F := F) (V (Proc.devRef .tc main_arg0)) (V (Proc.devRef .tc main_arg1)) := by
  rw [read_binary hW 81 V (a := main_v67) (b := main_v65) (y := main_v69) rfl (by decide) (by decide) (by decide), st_main_v67, st_main_v65]
  rfl
theorem st_main_v70 (V : Valuation τ sig (Elt F)) :
    after (ops (F := F)) V (Proc.devRef .tc main_v70) = ReadP.val_main_v70 (F := F) (V (Proc.devRef .tc main_arg0)) (V (Proc.devRef .tc main_arg1)) := by
  rw [read_binary hW 82 V (a := main_v68) (b := main_v69) (y := main_v70) rfl (by decide) (by decide) (by decide), st_main_v68, st_main_v69]
  rfl
theorem st_main_v71 (V : Valuation τ sig (Elt F)) :
    after (ops (F := F)) V (Proc.devRef .tc main_v71) = ReadP.val_main_v71 (F := F) (V (Proc.devRef .tc main_arg0)) (V (Proc.devRef .tc main_arg1)) := by
  rw [read_unary hW 83 V (x := main_v70) (y := main_v71) rfl (by decide) (by decide), st_main_v70]
  rfl
theorem st_main_v72 (V : Valuation τ sig (Elt F)) :
    after (ops (F := F)) V (Proc.devRef .tc main_v72) = ReadP.val_main_v72 (F := F) (V (Proc.devRef .tc main_arg0)) (V (Proc.devRef .tc main_arg1)) := by
  rw [read_unary hW 84 V (x := main_v70) (y := main_v72) rfl (by decide) (by decide), st_main_v70]
  rfl
theorem st_main_c (V : Valuation τ sig (Elt F)) :
    after (ops (F := F)) V (Proc.devRef .tc main_c) = ReadP.val_main_c (F := F) := by
  rw [read_nullary hW 85 V (y := main_c) rfl (by decide)]
  rfl
theorem st_main_v73 (V : Valuation τ sig (Elt F)) :
    after (ops (F := F)) V (Proc.devRef .tc main_v73) = ReadP.val_main_v73 (F := F) (V (Proc.devRef .tc main_arg0)) (V (Proc.devRef .tc main_arg1)) := by
  rw [read_binary hW 86 V (a := main_v72) (b := main_c) (y := main_v73) rfl (by decide) (by decide) (by decide), st_main_v72, st_main_c]
  rfl
theorem st_main_v74 (V : Valuation τ sig (Elt F)) :
    after (ops (F := F)) V (Proc.devRef .tc main_v74) = ReadP.val_main_v74 (F := F) (V (Proc.devRef .tc main_arg0)) (V (Proc.devRef .tc main_arg1)) := by
  rw [read_unary hW 87 V (x := main_v71) (y := main_v74) rfl (by decide) (by decide), st_main_v71]
  rfl
theorem st_main_c_11 (V : Valuation τ sig (Elt F)) :
    after (ops (F := F)) V (Proc.devRef .tc main_c_11) = ReadP.val_main_c_11 (F := F) := by
  rw [read_nullary hW 88 V (y := main_c_11) rfl (by decide)]
  rfl
theorem st_main_v75 (V : Valuation τ sig (Elt F)) :
    after (ops (F := F)) V (Proc.devRef .tc main_v75) = ReadP.val_main_v75 (F := F) (V (Proc.devRef .tc main_arg0)) (V (Proc.devRef .tc main_arg1)) := by
  rw [read_binary hW 89 V (a := main_v74) (b := main_c_11) (y := main_v75) rfl (by decide) (by decide) (by decide), st_main_v74, st_main_c_11]
  rfl
theorem st_main_v76 (V : Valuation τ sig (Elt F)) :
    after (ops (F := F)) V (Proc.devRef .tc main_v76) = ReadP.val_main_v76 (F := F) (V (Proc.devRef .tc main_arg0)) (V (Proc.devRef .tc main_arg1)) := by
  rw [read_binary hW 90 V (a := main_arg0) (b := main_arg1) (y := main_v76) rfl (by decide) (by decide) (by decide), st_main_arg0, st_main_arg1]
  rfl
theorem st_main_v77 (V : Valuation τ sig (Elt F)) :
    after (ops (F := F)) V (Proc.devRef .tc main_v77) = ReadP.val_main_v77 (F := F) (V (Proc.devRef .tc main_arg0)) (V (Proc.devRef .tc main_arg1)) := by
  rw [read_binary hW 91 V (a := main_v76) (b := main_v76) (y := main_v77) rfl (by decide) (by decide) (by decide), st_main_v76]
  rfl
theorem st_main_v78 (V : Valuation τ sig (Elt F)) :
    after (ops (F := F)) V (Proc.devRef .tc main_v78) = ReadP.val_main_v78 (F := F) (V (Proc.devRef .tc main_arg0)) (V (Proc.devRef .tc main_arg1)) := by
  rw [read_unary hW 92 V (x := main_v70) (y := main_v78) rfl (by decide) (by decide), st_main_v70]
  rfl
theorem st_main_v79 (V : Valuation τ sig (Elt F)) :
    after (ops (F := F)) V (Proc.devRef .tc main_v79) = ReadP.val_main_v79 (F := F) (V (Proc.devRef .tc main_arg0)) (V (Proc.devRef .tc main_arg1)) := by
  rw [read_unary hW 93 V (x := main_v78) (y := main_v79) rfl (by decide) (by decide), st_main_v78]
  rfl
theorem st_main_v80 (V : Valuation τ sig (Elt F)) :
    after (ops (F := F)) V (Proc.devRef .tc main_v80) = ReadP.val_main_v80 (F := F) (V (Proc.devRef .tc main_arg0)) (V (Proc.devRef .tc main_arg1)) := by
  rw [read_unary hW 94 V (x := main_v79) (y := main_v80) rfl (by decide) (by decide), st_main_v79]
  rfl
theorem st_main_v81 (V : Valuation τ sig (Elt F)) :
    after (ops (F := F)) V (Proc.devRef .tc main_v81) = ReadP.val_main_v81 (F := F) (V (Proc.devRef .tc main_arg0)) (V (Proc.devRef .tc main_arg1)) := by
  rw [read_binary hW 95 V (a := main_v77) (b := main_v80) (y := main_v81) rfl (by decide) (by decide) (by decide), st_main_v77, st_main_v80]
  rfl
theorem st_main_cst_12 (V : Valuation τ sig (Elt F)) :
    after (ops (F := F)) V (Proc.devRef .tc main_cst_12) = ReadP.val_main_cst_12 (F := F) := by
  rw [read_nullary hW 96 V (y := main_cst_12) rfl (by decide)]
  rfl
theorem st_main_v82 (V : Valuation τ sig (Elt F)) :
    after (ops (F := F)) V (Proc.devRef .tc main_v82) = ReadP.val_main_v82 (F := F) (V (Proc.devRef .tc main_arg0)) (V (Proc.devRef .tc main_arg1)) := by
  rw [read_binary hW 97 V (a := main_v81) (b := main_cst_12) (y := main_v82) rfl (by decide) (by decide) (by decide), st_main_v81, st_main_cst_12]
  rfl
theorem st_main_c_13 (V : Valuation τ sig (Elt F)) :
    after (ops (F := F)) V (Proc.devRef .tc main_c_13) = ReadP.val_main_c_13 (F := F) := by
  rw [read_nullary hW 98 V (y := main_c_13) rfl (by decide)]
  rfl
theorem st_main_v83 (V : Valuation τ sig (Elt F)) :
    after (ops (F := F)) V (Proc.devRef .tc main_v83) = ReadP.val_main_v83 (F := F) (V (Proc.devRef .tc main_arg0)) (V (Proc.devRef .tc main_arg1)) := by
  rw [read_binary hW 99 V (a := main_v73) (b := main_c_13) (y := main_v83) rfl (by decide) (by decide) (by decide), st_main_v73, st_main_c_13]
  rfl
theorem st_main_c_14 (V : Valuation τ sig (Elt F)) :
    after (ops (F := F)) V (Proc.devRef .tc main_c_14) = ReadP.val_main_c_14 (F := F) := by
  rw [read_nullary hW 100 V (y := main_c_14) rfl (by decide)]
  rfl
theorem st_main_v84 (V : Valuation τ sig (Elt F)) :
    after (ops (F := F)) V (Proc.devRef .tc main_v84) = ReadP.val_main_v84 (F := F) (V (Proc.devRef .tc main_arg0)) (V (Proc.devRef .tc main_arg1)) := by
  rw [read_binary hW 101 V (a := main_v83) (b := main_c_14) (y := main_v84) rfl (by decide) (by decide) (by decide), st_main_v83, st_main_c_14]
  rfl
theorem st_main_v85 (V : Valuation τ sig (Elt F)) :
    after (ops (F := F)) V (Proc.devRef .tc main_v85) = ReadP.val_main_v85 (F := F) (V (Proc.devRef .tc main_arg0)) (V (Proc.devRef .tc main_arg1)) := by
  rw [read_unary hW 102 V (x := main_v84) (y := main_v85) rfl (by decide) (by decide), st_main_v84]
  rfl
theorem st_main_v86 (V : Valuation τ sig (Elt F)) :
    after (ops (F := F)) V (Proc.devRef .tc main_v86) = ReadP.val_main_v86 (F := F) (V (Proc.devRef .tc main_arg0)) (V (Proc.devRef .tc main_arg1)) := by
  rw [read_binary hW 103 V (a := main_v82) (b := main_v85) (y := main_v86) rfl (by decide) (by decide) (by decide), st_main_v82, st_main_v85]
  rfl
theorem st_main_v87 (V : Valuation τ sig (Elt F)) :
    after (ops (F := F)) V (Proc.devRef .tc main_v87) = ReadP.val_main_v87 (F := F) (V (Proc.devRef .tc main_arg0)) := by
  rw [read_unary hW 104 V (x := main_arg0) (y := main_v87) rfl (by decide) (by decide), st_main_arg0]
  rfl
theorem st_main_v88 (V : Valuation τ sig (Elt F)) :
    after (ops (F := F)) V (Proc.devRef .tc main_v88) = ReadP.val_main_v88 (F := F) (V (Proc.devRef .tc main_arg0)) := by
  rw [read_reshape hW 105 V (x := main_v87) (y := main_v88) rfl (by decide) (by decide), st_main_v87]
  rfl
theorem st_main_v89 (V : Valuation τ sig (Elt F)) :
    after (ops (F := F)) V (Proc.devRef .tc main_v89) = ReadP.val_main_v89 (F := F) (V (Proc.devRef .tc main_arg0)) := by
  rw [read_unary hW 106 V (x := main_arg0) (y := main_v89) rfl (by decide) (by decide), st_main_arg0]
  rfl
theorem st_main_v90 (V : Valuation τ sig (Elt F)) :
    after (ops (F := F)) V (Proc.devRef .tc main_v90) = ReadP.val_main_v90 (F := F) (V (Proc.devRef .tc main_arg0)) := by
  rw [read_reshape hW 107 V (x := main_v89) (y := main_v90) rfl (by decide) (by decide), st_main_v89]
  rfl
theorem st_main_v91 (V : Valuation τ sig (Elt F)) :
    after (ops (F := F)) V (Proc.devRef .tc main_v91) = ReadP.val_main_v91 (F := F) (V (Proc.devRef .tc main_arg0)) := by
  rw [read_binary hW 108 V (a := main_v88) (b := main_v90) (y := main_v91) rfl (by decide) (by decide) (by decide), st_main_v88, st_main_v90]
  rfl
theorem st_main_v92 (V : Valuation τ sig (Elt F)) :
    after (ops (F := F)) V (Proc.devRef .tc main_v92) = ReadP.val_main_v92 (F := F) (V (Proc.devRef .tc main_arg1)) := by
  rw [read_unary hW 109 V (x := main_arg1) (y := main_v92) rfl (by decide) (by decide), st_main_arg1]
  rfl
theorem st_main_v93 (V : Valuation τ sig (Elt F)) :
    after (ops (F := F)) V (Proc.devRef .tc main_v93) = ReadP.val_main_v93 (F := F) (V (Proc.devRef .tc main_arg1)) := by
  rw [read_reshape hW 110 V (x := main_v92) (y := main_v93) rfl (by decide) (by decide), st_main_v92]
  rfl
theorem st_main_v94 (V : Valuation τ sig (Elt F)) :
    after (ops (F := F)) V (Proc.devRef .tc main_v94) = ReadP.val_main_v94 (F := F) (V (Proc.devRef .tc main_arg1)) := by
  rw [read_unary hW 111 V (x := main_arg1) (y := main_v94) rfl (by decide) (by decide), st_main_arg1]
  rfl
theorem st_main_v95 (V : Valuation τ sig (Elt F)) :
    after (ops (F := F)) V (Proc.devRef .tc main_v95) = ReadP.val_main_v95 (F := F) (V (Proc.devRef .tc main_arg1)) := by
  rw [read_reshape hW 112 V (x := main_v94) (y := main_v95) rfl (by decide) (by decide), st_main_v94]
  rfl
theorem st_main_v96 (V : Valuation τ sig (Elt F)) :
    after (ops (F := F)) V (Proc.devRef .tc main_v96) = ReadP.val_main_v96 (F := F) (V (Proc.devRef .tc main_arg1)) := by
  rw [read_binary hW 113 V (a := main_v93) (b := main_v95) (y := main_v96) rfl (by decide) (by decide) (by decide), st_main_v93, st_main_v95]
  rfl
theorem st_main_v97 (V : Valuation τ sig (Elt F)) :
    after (ops (F := F)) V (Proc.devRef .tc main_v97) = ReadP.val_main_v97 (F := F) (V (Proc.devRef .tc main_arg0)) (V (Proc.devRef .tc main_arg1)) := by
  rw [read_binary hW 114 V (a := main_v66) (b := main_v64) (y := main_v97) rfl (by decide) (by decide) (by decide), st_main_v66, st_main_v64]
  rfl
theorem st_main_v98 (V : Valuation τ sig (Elt F)) :
    after (ops (F := F)) V (Proc.devRef .tc main_v98) = ReadP.val_main_v98 (F := F) (V (Proc.devRef .tc main_arg0)) (V (Proc.devRef .tc main_arg1)) := by
  rw [read_binary hW 115 V (a := main_v67) (b := main_v65) (y := main_v98) rfl (by decide) (by decide) (by decide), st_main_v67, st_main_v65]
  rfl
theorem st_main_v99 (V : Valuation τ sig (Elt F)) :
    after (ops (F := F)) V (Proc.devRef .tc main_v99) = ReadP.val_main_v99 (F := F) (V (Proc.devRef .tc main_arg0)) (V (Proc.devRef .tc main_arg1)) := by
  rw [read_binary hW 116 V (a := main_v97) (b := main_v98) (y := main_v99) rfl (by decide) (by decide) (by decide), st_main_v97, st_main_v98]
  rfl
theorem st_main_v100 (V : Valuation τ sig (Elt F)) :
    after (ops (F := F)) V (Proc.devRef .tc main_v100) = ReadP.val_main_v100 (F := F) (V (Proc.devRef .tc main_arg0)) (V (Proc.devRef .tc main_arg1)) := by
  rw [read_binary hW 117 V (a := main_v91) (b := main_v96) (y := main_v100) rfl (by decide) (by decide) (by decide), st_main_v91, st_main_v96]
  rfl
theorem st_main_v101 (V : Valuation τ sig (Elt F)) :
    after (ops (F := F)) V (Proc.devRef .tc main_v101) = ReadP.val_main_v101 (F := F) (V (Proc.devRef .tc main_arg0)) (V (Proc.devRef .tc main_arg1)) := by
  rw [read_binary hW 118 V (a := main_v100) (b := main_v99) (y := main_v101) rfl (by decide) (by decide) (by decide), st_main_v100, st_main_v99]
  rfl
theorem st_main_cst_15 (V : Valuation τ sig (Elt F)) :
    after (ops (F := F)) V (Proc.devRef .tc main_cst_15) = ReadP.val_main_cst_15 (F := F) := by
  rw [read_nullary hW 119 V (y := main_cst_15) rfl (by decide)]
  rfl
theorem st_main_v102 (V : Valuation τ sig (Elt F)) :
    after (ops (F := F)) V (Proc.devRef .tc main_v102) = ReadP.val_main_v102 (F := F) := by
  rw [read_unary hW 120 V (x := main_cst_15) (y := main_v102) rfl (by decide) (by decide), st_main_cst_15]
  rfl
theorem st_main_v103 (V : Valuation τ sig (Elt F)) :
    after (ops (F := F)) V (Proc.devRef .tc main_v103) = ReadP.val_main_v103 (F := F) (V (Proc.devRef .tc main_arg0)) (V (Proc.devRef .tc main_arg1)) := by
  rw [read_binary hW 121 V (a := main_v101) (b := main_v102) (y := main_v103) rfl (by decide) (by decide) (by decide), st_main_v101, st_main_v102]
  rfl
theorem st_main_v104 (V : Valuation τ sig (Elt F)) :
    after (ops (F := F)) V (Proc.devRef .tc main_v104) = ReadP.val_main_v104 (F := F) (V (Proc.devRef .tc main_arg0)) (V (Proc.devRef .tc main_arg1)) := by
  rw [read_binary hW 122 V (a := main_v99) (b := main_v103) (y := main_v104) rfl (by decide) (by decide) (by decide), st_main_v99, st_main_v103]
  rfl
theorem st_main_cst_16 (V : Valuation τ sig (Elt F)) :
    after (ops (F := F)) V (Proc.devRef .tc main_cst_16) = ReadP.val_main_cst_16 (F := F) := by
  rw [read_nullary hW 123 V (y := main_cst_16) rfl (by decide)]
  rfl
theorem st_main_call0_v0 (V : Valuation τ sig (Elt F)) :
    after (ops (F := F)) V (Proc.devRef .tc main_call0_v0) = ReadP.val_main_call0_v0 (F := F) := by
  rw [read_unary hW 124 V (x := main_cst_16) (y := main_call0_v0) rfl (by decide) (by decide), st_main_cst_16]
  rfl
theorem st_main_call0_v1 (V : Valuation τ sig (Elt F)) :
    after (ops (F := F)) V (Proc.devRef .tc main_call0_v1) = ReadP.val_main_call0_v1 (F := F) := by
  rw [read_unary hW 125 V (x := main_call0_v0) (y := main_call0_v1) rfl (by decide) (by decide), st_main_call0_v0]
  rfl
theorem st_main_v105 (V : Valuation τ sig (Elt F)) :
    after (ops (F := F)) V (Proc.devRef .tc main_v105) = ReadP.val_main_v105 (F := F) (V (Proc.devRef .tc main_arg0)) (V (Proc.devRef .tc main_arg1)) := by
  rw [read_ternary hW 126 V (c := main_v71) (a := main_v104) (b := main_call0_v1) (y := main_v105) rfl (by decide) (by decide) (by decide) (by decide)]
  unfold ReadP.val_main_v105
  rw [← st_main_v71 V, ← st_main_v104 V, ← st_main_call0_v1 V]
  generalize after (ops (F := F)) V (Proc.devRef .tc main_v71) = B0
  generalize after (ops (F := F)) V (Proc.devRef .tc main_v104) = B1
  generalize after (ops (F := F)) V (Proc.devRef .tc main_call0_v1) = B2
  rfl
theorem st_main_cst_17 (V : Valuation τ sig (Elt F)) :
    after (ops (F := F)) V (Proc.devRef .tc main_cst_17) = ReadP.val_main_cst_17 (F := F) := by
  rw [read_nullary hW 127 V (y := main_cst_17) rfl (by decide)]
  rfl
theorem st_main_v106 (V : Valuation τ sig (Elt F)) :
    after (ops (F := F)) V (Proc.devRef .tc main_v106) = ReadP.val_main_v106 (F := F) (V (Proc.devRef .tc main_arg0)) (V (Proc.devRef .tc main_arg1)) := by
  rw [read_binary hW 128 V (a := main_v105) (b := main_cst_17) (y := main_v106) rfl (by decide) (by decide) (by decide), st_main_v105, st_main_cst_17]
  rfl
theorem st_main_c_18 (V : Valuation τ sig (Elt F)) :
    after (ops (F := F)) V (Proc.devRef .tc main_c_18) = ReadP.val_main_c_18 (F := F) := by
  rw [read_nullary hW 129 V (y := main_c_18) rfl (by decide)]
  rfl
theorem st_main_v107 (V : Valuation τ sig (Elt F)) :
    after (ops (F := F)) V (Proc.devRef .tc main_v107) = ReadP.val_main_v107 (F := F) (V (Proc.devRef .tc main_arg0)) (V (Proc.devRef .tc main_arg1)) := by
  rw [read_binary hW 130 V (a := main_v75) (b := main_c_18) (y := main_v107) rfl (by decide) (by decide) (by decide), st_main_v75, st_main_c_18]
  rfl
theorem st_main_v108 (V : Valuation τ sig (Elt F)) :
    after (ops (F := F)) V (Proc.devRef .tc main_v108) = ReadP.val_main_v108 (F := F) (V (Proc.devRef .tc main_arg0)) (V (Proc.devRef .tc main_arg1)) := by
  rw [read_unary hW 131 V (x := main_v107) (y := main_v108) rfl (by decide) (by decide), st_main_v107]
  rfl
theorem st_main_v109 (V : Valuation τ sig (Elt F)) :
    after (ops (F := F)) V (Proc.devRef .tc main_v109) = ReadP.val_main_v109 (F := F) (V (Proc.devRef .tc main_arg0)) (V (Proc.devRef .tc main_arg1)) := by
  rw [read_binary hW 132 V (a := main_v106) (b := main_v108) (y := main_v109) rfl (by decide) (by decide) (by decide), st_main_v106, st_main_v108]
  rfl
theorem st_main_c_19 (V : Valuation τ sig (Elt F)) :
    after (ops (F := F)) V (Proc.devRef .tc main_c_19) = ReadP.val_main_c_19 (F := F) := by
  rw [read_nullary hW 133 V (y := main_c_19) rfl (by decide)]
  rfl
theorem st_main_v110 (V : Valuation τ sig (Elt F)) :
    after (ops (F := F)) V (Proc.devRef .tc main_v110) = ReadP.val_main_v110 (F := F) (V (Proc.devRef .tc main_arg0)) (V (Proc.devRef .tc main_arg1)) := by
  rw [read_binary hW 134 V (a := main_v73) (b := main_c_19) (y := main_v110) rfl (by decide) (by decide) (by decide), st_main_v73, st_main_c_19]
  rfl
theorem st_main_v111 (V : Valuation τ sig (Elt F)) :
    after (ops (F := F)) V (Proc.devRef .tc main_v111) = ReadP.val_main_v111 (F := F) (V (Proc.devRef .tc main_arg0)) (V (Proc.devRef .tc main_arg1)) := by
  rw [read_unary hW 135 V (x := main_v86) (y := main_v111) rfl (by decide) (by decide), st_main_v86]
  rfl
theorem st_main_cst_20 (V : Valuation τ sig (Elt F)) :
    after (ops (F := F)) V (Proc.devRef .tc main_cst_20) = ReadP.val_main_cst_20 (F := F) := by
  rw [read_nullary hW 136 V (y := main_cst_20) rfl (by decide)]
  rfl
theorem st_main_call1_v0 (V : Valuation τ sig (Elt F)) :
    after (ops (F := F)) V (Proc.devRef .tc main_call1_v0) = ReadP.val_main_call1_v0 (F := F) := by
  rw [read_unary hW 137 V (x := main_cst_20) (y := main_call1_v0) rfl (by decide) (by decide), st_main_cst_20]
  rfl
theorem st_main_v112 (V : Valuation τ sig (Elt F)) :
    after (ops (F := F)) V (Proc.devRef .tc main_v112) = ReadP.val_main_v112 (F := F) (V (Proc.devRef .tc main_arg0)) (V (Proc.devRef .tc main_arg1)) := by
  rw [read_ternary hW 138 V (c := main_v110) (a := main_v111) (b := main_call1_v0) (y := main_v112) rfl (by decide) (by decide) (by decide) (by decide)]
  unfold ReadP.val_main_v112
  rw [← st_main_v110 V, ← st_main_v111 V, ← st_main_call1_v0 V]
  generalize after (ops (F := F)) V (Proc.devRef .tc main_v110) = B0
  generalize after (ops (F := F)) V (Proc.devRef .tc main_v111) = B1
  generalize after (ops (F := F)) V (Proc.devRef .tc main_call1_v0) = B2
  rfl
theorem st_main_v113 (V : Valuation τ sig (Elt F)) :
    after (ops (F := F)) V (Proc.devRef .tc main_v113) = ReadP.val_main_v113 (F := F) (V (Proc.devRef .tc main_arg0)) (V (Proc.devRef .tc main_arg1)) := by
  rw [read_binary hW 139 V (a := main_v109) (b := main_v112) (y := main_v113) rfl (by decide) (by decide) (by decide), st_main_v109, st_main_v112]
  rfl
theorem st_main_c_21 (V : Valuation τ sig (Elt F)) :
    after (ops (F := F)) V (Proc.devRef .tc main_c_21) = ReadP.val_main_c_21 (F := F) := by
  rw [read_nullary hW 140 V (y := main_c_21) rfl (by decide)]
  rfl
theorem st_main_v114 (V : Valuation τ sig (Elt F)) :
    after (ops (F := F)) V (Proc.devRef .tc main_v114) = ReadP.val_main_v114 (F := F) (V (Proc.devRef .tc main_arg0)) (V (Proc.devRef .tc main_arg1)) := by
  rw [read_binary hW 141 V (a := main_v75) (b := main_c_21) (y := main_v114) rfl (by decide) (by decide) (by decide), st_main_v75, st_main_c_21]
  rfl
theorem st_main_v115 (V : Valuation τ sig (Elt F)) :
    after (ops (F := F)) V (Proc.devRef .tc main_v115) = ReadP.val_main_v115 (F := F) (V (Proc.devRef .tc main_arg0)) (V (Proc.devRef .tc main_arg1)) := by
  rw [read_unary hW 142 V (x := main_v86) (y := main_v115) rfl (by decide) (by decide), st_main_v86]
  rfl
theorem st_main_v116 (V : Valuation τ sig (Elt F)) :
    after (ops (F := F)) V (Proc.devRef .tc main_v116) = ReadP.val_main_v116 (F := F) (V (Proc.devRef .tc main_arg0)) (V (Proc.devRef .tc main_arg1)) := by
  rw [read_ternary hW 143 V (c := main_v114) (a := main_v113) (b := main_v115) (y := main_v116) rfl (by decide) (by decide) (by decide) (by decide)]
  unfold ReadP.val_main_v116
  rw [← st_main_v114 V, ← st_main_v113 V, ← st_main_v115 V]
  generalize after (ops (F := F)) V (Proc.devRef .tc main_v114) = B0
  generalize after (ops (F := F)) V (Proc.devRef .tc main_v113) = B1
  generalize after (ops (F := F)) V (Proc.devRef .tc main_v115) = B2
  rfl

/-! ## The run -/

/-- From any memory with zero counters every weakly fair execution of the reference terminates, the result buffer at
    the last stage of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116)
          = ReadP.val_main_v116 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v116).trans (st_main_v116 _), (h c main_arg0).trans (st_main_arg0 _),
      (h c main_arg1).trans (st_main_arg1 _)⟩)
    (run_seq scopedRefs_eq scopedSems_eq defs main (fun _ => ops) main_eq (fun _ => ops_sub) m ρ)

end Cert.ReferenceIdeal.RunValue

end
-- ==== Proof.LibVariance.lean ====
/- A general lemma about the two ways of writing a variance.

   For finitely many REAL numbers y_i and N their count (N ≠ 0), with S = Σ y_i and Q = Σ y_i²:
       Q/N − (S/N)²  =  (Σ (y_i − S/N)²) / N,
   since Σ (y_i − μ)² = Q − 2μS + Nμ² and μ = S/N gives Q − S²/N. The second theorem is the same equation
   between extended reals, each y_i a real seen as an extended real, every quotient the ideal instance's division
   by the real N: all the quantities are then real and the equation is the real one under the coercion. On
   extended reals in general the law is false (it distributes a product over a sum), which is why it is stated
   at finite entries only. Batch normalisation's statistics meet here: one program accumulates S and Q in one
   pass, the other centres first. -/
import Idealize.ShloMosaic.PureOps.Ideal

namespace Cert.Lib.Variance

open Idealize.ShloMosaic

variable {ι : Type} [Fintype ι]

/-- A finite sum of reals, each seen as an extended real, is the real sum seen as an extended real. -/
theorem coe_sum {κ : Type} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: the mean of the squares less the square of the mean is the mean of the squared deviations
    (quotients written as products with 1/N, the form the extended-real division by a real unfolds to). -/
theorem real_var (y : ι → ℝ) (N : ℝ) (hN : (Fintype.card ι : ℝ) = N) (h0 : N ≠ 0) :
    (∑ i, y i * y i) * (1 / N) - (∑ i, y i) * (1 / N) * ((∑ i, y i) * (1 / N))
      = (∑ i, (y i - (∑ j, y j) * (1 / N)) * (y i - (∑ j, y j) * (1 / N))) * (1 / N) := by
  have hsq : ∀ (μ : ℝ), ∑ i, (y i - μ) * (y i - μ) = (∑ i, y i * y i) - 2 * μ * (∑ i, y i) + N * (μ * μ) := by
    intro μ
    have : ∀ i, (y i - μ) * (y i - μ) = y i * y i - 2 * μ * y i + μ * μ := fun i => by ring
    simp only [this, Finset.sum_add_distrib, Finset.sum_sub_distrib, ← Finset.mul_sum, Finset.sum_const,
      Finset.card_univ, nsmul_eq_mul, hN]
    ring
  rw [hsq]
  field_simp
  ring

/-- The same between extended reals at finite entries, in the ideal instance's spelling: every quotient is
    the division by the real N. -/
theorem ideal_var (y : ι → ℝ) (N : ℝ) (hN : (Fintype.card ι : ℝ) = N) (h0 : N ≠ 0) :
    Ideal.div (∑ i, ((y i : ℝ) : EReal) * ((y i : ℝ) : EReal)) (N : EReal)
        - Ideal.div (∑ i, ((y i : ℝ) : EReal)) (N : EReal) * Ideal.div (∑ i, ((y i : ℝ) : EReal)) (N : EReal)
      = Ideal.div (∑ i, (((y i : ℝ) : EReal) - Ideal.div (∑ j, ((y j : ℝ) : EReal)) (N : EReal))
            * (((y i : ℝ) : EReal) - Ideal.div (∑ j, ((y j : ℝ) : EReal)) (N : EReal))) (N : EReal) := by
  simp only [Ideal.div_coe h0, ← EReal.coe_mul, coe_sum, ← EReal.coe_sub]
  exact congrArg Real.toEReal (real_var y N hN h0)

end Cert.Lib.Variance
-- ==== Proof.RefSide.lean ====
/-
  The reference computes the box loss of its two arguments.

  The reference program works on whole columns: it cuts each of the four columns out of the 8000000 × 4 predicted
  array X and target array Y (a slice of width one, reshaped to a vector), forms the corners of the two boxes and of
  their overlap column by column, and so obtains for every row the one-bit mask "the overlap is empty along x or
  along y". Read at row R, each of these column stages is the specification's per-row term of row R of X and row R of
  Y: the lower and upper corners of the overlap, the miss bit, the ratio overlap / (area + area − overlap + eps).

  Four totals follow. Two are sums of extended reals: the squared differences times the miss bit read as 0 or 1, over
  both axes, and the ratios of the rows that hit — written there as a selection by the flipped bit, which is the
  product with the flipped bit read as 0 or 1 because x · 0 = 0 for every extended real x, the infinities included.
  The other two are INTEGER sums: the miss bits, and the flipped bits, widened to 32-bit words and added from 0. A sum
  of N words each 0 or 1 is the word of the number n of ones; n ≤ 8000000 < 2³¹, and 4 n < 2³¹ as well, so reading
  the words n, max(n, 1) and max(4 n, 1) as signed integers gives those numbers, and converting them gives the reals
  n, max(n, 1), max(4 n, 1). On the specification's side the same count is the sum of the bits read as extended
  reals, which is the real n. So the integer maximum, converted, is the maximum of the float count (times the
  constant 4, which denotes 4) with the constant 1 (which denotes 1), and the integer test n > 0 is the float test
  n > 0. With the four totals and these three facts the reference's scalar tail is the specification's.

  Only the zero word, the words of 4 and of 1 are evaluated; 1/2 and eps stay the words both programs print.
-/
import proofs.«174585_j15187004359196_1_alg».proof.Proof.RefRead
import proofs.«174585_j15187004359196_1_alg».proof.Proof.Spec
import proofs.«174585_j15187004359196_1_alg».proof.Proof.LibVariance
import Idealize.ShloMosaic.Lib.ValueIdx
import Idealize.ShloMosaic.Lib.KernelVsHost
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.BoxLoss

/-! ## One bit as a number -/

theorem bitF_eq (b : BitVec 1) : bitF b = ((b.toNat : ℝ) : EReal) := by
  unfold bitF
  rw [toInt_setWidth_bit]
  norm_cast

theorem bitF_zero : bitF 0#1 = 0 := by rw [bitF_eq]; simp
theorem bitF_one : bitF 1#1 = 1 := by rw [bitF_eq]; simp

theorem setWidth_bit : ∀ b : BitVec 1, b.setWidth 32 = BitVec.ofNat 32 b.toNat := by decide

/-! ## Counting ones -/

section Count
variable {ι : Type}

theorem fold_addi_bits (s : Finset ι) (b : ι → BitVec 1) :
    s.fold IntOp.addi 0#32 (fun i => (b i).setWidth 32) = BitVec.ofNat 32 (∑ i ∈ s, (b i).toNat) := by
  classical
  induction s using Finset.induction_on with
  | empty => rfl
  | insert a s ha ih =>
    rw [Finset.fold_insert ha, Finset.sum_insert ha, ih, BitVec.ofNat_add, setWidth_bit]
    rfl

theorem sum_bits_le (s : Finset ι) (b : ι → BitVec 1) : ∑ i ∈ s, (b i).toNat ≤ s.card := by
  calc ∑ i ∈ s, (b i).toNat ≤ ∑ _i ∈ s, 1 := Finset.sum_le_sum (fun i _ => by have := (b i).isLt; omega)
    _ = s.card := by simp

theorem sum_bitF (s : Finset ι) (b : ι → BitVec 1) :
    ∑ i ∈ s, bitF (b i) = (((∑ i ∈ s, (b i).toNat : ℕ) : ℝ) : EReal) := by
  simp only [bitF_eq]
  rw [Cert.Lib.Variance.coe_sum, Nat.cast_sum]

end Count

/-! ## The constants 4 and 1 -/

theorem four_eq : four = ((4 : ℝ) : EReal) := by
  show Ideal.ofBits .f32 0x40800000#32 = _
  simp [Ideal.ofBits, Ideal.ieee, -EReal.coe_mul]; norm_num

theorem one_eq : one = ((1 : ℝ) : EReal) := by
  show Ideal.ofBits .f32 0x3F800000#32 = _
  simp [Ideal.ofBits, Ideal.ieee, -EReal.coe_mul]; norm_num

/-! ## An integer count against the same count as a float -/

theorem coe_max (a b : ℝ) : ((max a b : ℝ) : EReal) = max (a : EReal) (b : EReal) :=
  EReal.coe_strictMono.monotone.map_max

theorem toInt_of_small (x : BitVec 32) (h : x.toNat < 2147483648) : x.toInt = (x.toNat : ℤ) := by
  rw [BitVec.toInt_eq_toNat_cond]
  split <;> omega

theorem toInt_maxsi_one (x : BitVec 32) (h : x.toNat < 2147483648) :
    (IntOp.maxsi x 1#32).toInt = max (x.toNat : ℤ) 1 := by
  have hx := toInt_of_small x h
  have h1 : (1#32 : BitVec 32).toInt = 1 := by decide
  unfold IntOp.maxsi
  rw [show (1#32 : BitVec 32).slt x = decide ((1 : ℤ) < (x.toNat : ℤ)) from by simp only [BitVec.slt, h1, hx]]
  by_cases hc : (1 : ℤ) < (x.toNat : ℤ)
  · rw [decide_eq_true hc, if_pos rfl, hx]; omega
  · rw [decide_eq_false hc, if_neg Bool.false_ne_true, h1]; omega

theorem toNat_muli4 (w : BitVec 32) (h : w.toNat ≤ 8000000) : (IntOp.muli w 4#32).toNat = w.toNat * 4 := by
  show (w * 4#32).toNat = _
  bv_omega

/-- The integer max(4 n, 1), converted, is the float max(n · 4, 1). -/
theorem sitofp_max4 (w : BitVec 32) (h : w.toNat ≤ 8000000) :
    FloatOps.sitofp (F := Ideal) .f32 (IntOp.maxsi (IntOp.muli w 4#32) 1#32)
      = max (((w.toNat : ℝ) : EReal) * four) one := by
  show ((((IntOp.maxsi (IntOp.muli w 4#32) 1#32).toInt : ℤ) : ℝ) : EReal) = _
  have h4 := toNat_muli4 w h
  rw [toInt_maxsi_one _ (by rw [h4]; omega), h4, four_eq, one_eq, ← EReal.coe_mul, ← coe_max]
  push_cast
  rfl

/-- The integer max(n, 1), converted, is the float max(n, 1). -/
theorem sitofp_max1 (w : BitVec 32) (h : w.toNat ≤ 8000000) :
    FloatOps.sitofp (F := Ideal) .f32 (IntOp.maxsi w 1#32) = max ((w.toNat : ℝ) : EReal) one := by
  show ((((IntOp.maxsi w 1#32).toInt : ℤ) : ℝ) : EReal) = _
  rw [toInt_maxsi_one _ (by omega), one_eq, ← coe_max]
  push_cast
  rfl

/-- The integer test n > 0 is the float test n > 0. -/
theorem cmpi_sgt_zero (w : BitVec 32) (h : w.toNat ≤ 8000000) :
    IntOp.cmpi .sgt w 0#32 = FloatOps.cmpf (F := Ideal) (φ := .f32) .ogt ((w.toNat : ℝ) : EReal) zero := by
  show BitVec.ofBool ((0#32 : BitVec 32).slt w) = BitVec.ofBool (decide (zero < ((w.toNat : ℝ) : EReal)))
  refine congrArg BitVec.ofBool ?_
  have h0 : (0#32 : BitVec 32).toInt = 0 := by decide
  simp only [BitVec.slt, toInt_of_small w (by omega), h0, zero_eq, EReal.coe_pos, Nat.cast_pos, Int.natCast_pos]

theorem toNat_ofNat_small (n : ℕ) (h : n ≤ 8000000) : (BitVec.ofNat 32 n).toNat = n := by
  rw [BitVec.toNat_ofNat]; omega

theorem sitofp_max4_ofNat (n : ℕ) (h : n ≤ 8000000) :
    FloatOps.sitofp (F := Ideal) .f32 (IntOp.maxsi (IntOp.muli (BitVec.ofNat 32 n) 4#32) 1#32)
      = max (((n : ℝ) : EReal) * four) one := by
  have e := toNat_ofNat_small n h
  have := sitofp_max4 (BitVec.ofNat 32 n) (by rw [e]; exact h)
  rwa [e] at this

theorem sitofp_max1_ofNat (n : ℕ) (h : n ≤ 8000000) :
    FloatOps.sitofp (F := Ideal) .f32 (IntOp.maxsi (BitVec.ofNat 32 n) 1#32) = max ((n : ℝ) : EReal) one := by
  have e := toNat_ofNat_small n h
  have := sitofp_max1 (BitVec.ofNat 32 n) (by rw [e]; exact h)
  rwa [e] at this

theorem cmpi_sgt_zero_ofNat (n : ℕ) (h : n ≤ 8000000) :
    IntOp.cmpi .sgt (BitVec.ofNat 32 n) 0#32 = FloatOps.cmpf (F := Ideal) (φ := .f32) .ogt ((n : ℝ) : EReal) zero := by
  have e := toNat_ofNat_small n h
  have := cmpi_sgt_zero (BitVec.ofNat 32 n) (by rw [e]; exact h)
  rwa [e] at this

/-! ## Rank-1 indices are their one coordinate -/

/-- An index of a one-axis shape is its coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem card_rows : (Finset.univ : Finset (⟨1, ![8000000]⟩ : Shape).Idx).card = 8000000 := by
  rw [Finset.card_univ, Fintype.card_congr idxEquiv1, Fintype.card_fin]

/-- An 8000000 × 4 array of extended reals. -/
abbrev Arr : Type := (⟨2, ![8000000, 4]⟩ : Shape).Idx → EReal

/-! ## A column of an array, as the program reads it (a slice of width one, reshaped to a vector): row R of
    column c -/

section Columns
variable (Z : Arr) (R : Fin 8000000)

theorem v1_row : val_main_v1 (F := Ideal) Z (ix1 R) = Z (ix2 R 0) := by
  rw [val_main_v1_apply, val_main_v0_apply]
  refine congrArg Z (funext fun a => Fin.ext ?_)
  match a with
  | ⟨0, _⟩ => exact Nat.div_one _
  | ⟨1, _⟩ => rfl
theorem v3_row : val_main_v3 (F := Ideal) Z (ix1 R) = Z (ix2 R 2) := by
  rw [val_main_v3_apply, val_main_v2_apply]
  refine congrArg Z (funext fun a => Fin.ext ?_)
  match a with
  | ⟨0, _⟩ => exact Nat.div_one _
  | ⟨1, _⟩ => rfl
theorem v8_row : val_main_v8 (F := Ideal) Z (ix1 R) = Z (ix2 R 0) := by
  rw [val_main_v8_apply, val_main_v7_apply]
  refine congrArg Z (funext fun a => Fin.ext ?_)
  match a with
  | ⟨0, _⟩ => exact Nat.div_one _
  | ⟨1, _⟩ => rfl
theorem v10_row : val_main_v10 (F := Ideal) Z (ix1 R) = Z (ix2 R 2) := by
  rw [val_main_v10_apply, val_main_v9_apply]
  refine congrArg Z (funext fun a => Fin.ext ?_)
  match a with
  | ⟨0, _⟩ => exact Nat.div_one _
  | ⟨1, _⟩ => rfl
theorem v15_row : val_main_v15 (F := Ideal) Z (ix1 R) = Z (ix2 R 1) := by
  rw [val_main_v15_apply, val_main_v14_apply]
  refine congrArg Z (funext fun a => Fin.ext ?_)
  match a with
  | ⟨0, _⟩ => exact Nat.div_one _
  | ⟨1, _⟩ => rfl
theorem v17_row : val_main_v17 (F := Ideal) Z (ix1 R) = Z (ix2 R 3) := by
  rw [val_main_v17_apply, val_main_v16_apply]
  refine congrArg Z (funext fun a => Fin.ext ?_)
  match a with
  | ⟨0, _⟩ => exact Nat.div_one _
  | ⟨1, _⟩ => rfl
theorem v22_row : val_main_v22 (F := Ideal) Z (ix1 R) = Z (ix2 R 1) := by
  rw [val_main_v22_apply, val_main_v21_apply]
  refine congrArg Z (funext fun a => Fin.ext ?_)
  match a with
  | ⟨0, _⟩ => exact Nat.div_one _
  | ⟨1, _⟩ => rfl
theorem v24_row : val_main_v24 (F := Ideal) Z (ix1 R) = Z (ix2 R 3) := by
  rw [val_main_v24_apply, val_main_v23_apply]
  refine congrArg Z (funext fun a => Fin.ext ?_)
  match a with
  | ⟨0, _⟩ => exact Nat.div_one _
  | ⟨1, _⟩ => rfl
theorem v93_row : val_main_v93 (F := Ideal) Z (ix1 R) = Z (ix2 R 2) := by
  rw [val_main_v93_apply, val_main_v92_apply]
  refine congrArg Z (funext fun a => Fin.ext ?_)
  match a with
  | ⟨0, _⟩ => exact Nat.div_one _
  | ⟨1, _⟩ => rfl
theorem v95_row : val_main_v95 (F := Ideal) Z (ix1 R) = Z (ix2 R 3) := by
  rw [val_main_v95_apply, val_main_v94_apply]
  refine congrArg Z (funext fun a => Fin.ext ?_)
  match a with
  | ⟨0, _⟩ => exact Nat.div_one _
  | ⟨1, _⟩ => rfl
theorem v29_row : val_main_v29 (F := Ideal) Z (ix1 R) = Z (ix2 R 0) := by
  rw [val_main_v29_apply, val_main_v28_apply]
  refine congrArg Z (funext fun a => Fin.ext ?_)
  match a with
  | ⟨0, _⟩ => exact Nat.div_one _
  | ⟨1, _⟩ => rfl
theorem v31_row : val_main_v31 (F := Ideal) Z (ix1 R) = Z (ix2 R 2) := by
  rw [val_main_v31_apply, val_main_v30_apply]
  refine congrArg Z (funext fun a => Fin.ext ?_)
  match a with
  | ⟨0, _⟩ => exact Nat.div_one _
  | ⟨1, _⟩ => rfl
theorem v38_row : val_main_v38 (F := Ideal) Z (ix1 R) = Z (ix2 R 0) := by
  rw [val_main_v38_apply, val_main_v37_apply]
  refine congrArg Z (funext fun a => Fin.ext ?_)
  match a with
  | ⟨0, _⟩ => exact Nat.div_one _
  | ⟨1, _⟩ => rfl
theorem v40_row : val_main_v40 (F := Ideal) Z (ix1 R) = Z (ix2 R 2) := by
  rw [val_main_v40_apply, val_main_v39_apply]
  refine congrArg Z (funext fun a => Fin.ext ?_)
  match a with
  | ⟨0, _⟩ => exact Nat.div_one _
  | ⟨1, _⟩ => rfl
theorem v47_row : val_main_v47 (F := Ideal) Z (ix1 R) = Z (ix2 R 1) := by
  rw [val_main_v47_apply, val_main_v46_apply]
  refine congrArg Z (funext fun a => Fin.ext ?_)
  match a with
  | ⟨0, _⟩ => exact Nat.div_one _
  | ⟨1, _⟩ => rfl
theorem v49_row : val_main_v49 (F := Ideal) Z (ix1 R) = Z (ix2 R 3) := by
  rw [val_main_v49_apply, val_main_v48_apply]
  refine congrArg Z (funext fun a => Fin.ext ?_)
  match a with
  | ⟨0, _⟩ => exact Nat.div_one _
  | ⟨1, _⟩ => rfl
theorem v56_row : val_main_v56 (F := Ideal) Z (ix1 R) = Z (ix2 R 1) := by
  rw [val_main_v56_apply, val_main_v55_apply]
  refine congrArg Z (funext fun a => Fin.ext ?_)
  match a with
  | ⟨0, _⟩ => exact Nat.div_one _
  | ⟨1, _⟩ => rfl
theorem v58_row : val_main_v58 (F := Ideal) Z (ix1 R) = Z (ix2 R 3) := by
  rw [val_main_v58_apply, val_main_v57_apply]
  refine congrArg Z (funext fun a => Fin.ext ?_)
  match a with
  | ⟨0, _⟩ => exact Nat.div_one _
  | ⟨1, _⟩ => rfl
theorem v88_row : val_main_v88 (F := Ideal) Z (ix1 R) = Z (ix2 R 2) := by
  rw [val_main_v88_apply, val_main_v87_apply]
  refine congrArg Z (funext fun a => Fin.ext ?_)
  match a with
  | ⟨0, _⟩ => exact Nat.div_one _
  | ⟨1, _⟩ => rfl
theorem v90_row : val_main_v90 (F := Ideal) Z (ix1 R) = Z (ix2 R 3) := by
  rw [val_main_v90_apply, val_main_v89_apply]
  refine congrArg Z (funext fun a => Fin.ext ?_)
  match a with
  | ⟨0, _⟩ => exact Nat.div_one _
  | ⟨1, _⟩ => rfl
end Columns

/-! ## The per-row stages at row R are the specification's per-row terms -/

section Rows
variable (X Y : Arr) (R : Fin 8000000)

theorem v64_row : val_main_v64 (F := Ideal) X Y (ix1 R) = lo0 (rowOf X R) (rowOf Y R) := by
  simp only [val_main_v64_apply, val_main_v6_apply, val_main_v5_apply, val_main_v36_apply, val_main_v34_apply,
    val_main_v33_apply, val_main_v4_apply, val_main_cst_apply, val_main_v32_apply, val_main_cst_3_apply,
    val_main_v35_apply, val_main_cst_4_apply, v1_row, v3_row, v29_row, v31_row]
  rfl

theorem v65_row : val_main_v65 (F := Ideal) X Y (ix1 R) = lo1 (rowOf X R) (rowOf Y R) := by
  simp only [val_main_v65_apply, val_main_v20_apply, val_main_v19_apply, val_main_v54_apply, val_main_v52_apply,
    val_main_v51_apply, val_main_v18_apply, val_main_cst_1_apply, val_main_v50_apply, val_main_cst_7_apply,
    val_main_v53_apply, val_main_cst_8_apply, v15_row, v17_row, v47_row, v49_row]
  rfl

theorem v66_row : val_main_v66 (F := Ideal) X Y (ix1 R) = hi0 (rowOf X R) (rowOf Y R) := by
  simp only [val_main_v66_apply, val_main_v13_apply, val_main_v12_apply, val_main_v45_apply, val_main_v43_apply,
    val_main_v42_apply, val_main_v11_apply, val_main_cst_0_apply, val_main_v41_apply, val_main_cst_5_apply,
    val_main_v44_apply, val_main_cst_6_apply, v8_row, v10_row, v38_row, v40_row]
  rfl

theorem v67_row : val_main_v67 (F := Ideal) X Y (ix1 R) = hi1 (rowOf X R) (rowOf Y R) := by
  simp only [val_main_v67_apply, val_main_v27_apply, val_main_v26_apply, val_main_v63_apply, val_main_v61_apply,
    val_main_v60_apply, val_main_v25_apply, val_main_cst_2_apply, val_main_v59_apply, val_main_cst_9_apply,
    val_main_v62_apply, val_main_cst_10_apply, v22_row, v24_row, v56_row, v58_row]
  rfl

/-- The mask bit of row R is the specification's miss. -/
theorem v70_row : val_main_v70 (F := Ideal) X Y (ix1 R) = miss (rowOf X R) (rowOf Y R) := by
  simp only [val_main_v70_apply, val_main_v68_apply, val_main_v69_apply, v64_row, v65_row, v66_row, v67_row]
  rfl

/-- Its negation is the miss bit flipped. -/
theorem v71_row : val_main_v71 (F := Ideal) X Y (ix1 R) = IntOp.xori (miss (rowOf X R) (rowOf Y R)) 1#1 := by
  rw [val_main_v71_apply, v70_row, xori_one_eq_not]

theorem v104_row : val_main_v104 (F := Ideal) X Y (ix1 R) = ratio (rowOf X R) (rowOf Y R) := by
  simp only [val_main_v104_apply, val_main_v99_apply, val_main_v97_apply, val_main_v98_apply, val_main_v103_apply,
    val_main_v101_apply, val_main_v100_apply, val_main_v91_apply, val_main_v96_apply, val_main_v102_apply,
    val_main_cst_15_apply, v88_row, v90_row, v93_row, v95_row, v64_row, v65_row, v66_row, v67_row]
  rfl

/-- The masked square of entry (R, k). -/
theorem v81_at (k : Fin 4) : val_main_v81 (F := Ideal) X Y (ix2 R k) = sqTerm (rowOf X R) (rowOf Y R) k := by
  rw [val_main_v81_apply, val_main_v77_apply, val_main_v76_apply, val_main_v80_apply, val_main_v79_apply,
    val_main_v78_apply,
    show idx_main_v78 (idx_main_v80 (ix2 R k)) = ix1 R from funext fun a => Fin.ext (by match a with | ⟨0, _⟩ => rfl),
    v70_row]
  unfold sqTerm
  rw [bitF_eq]
  rfl

/-- The hit rows' ratio: the selection by the flipped bit is the product with the flipped bit read as 0 or 1
    (x · 0 = 0 for every extended real x). -/
theorem v105_row : val_main_v105 (F := Ideal) X Y (ix1 R) = ratioTerm (rowOf X R) (rowOf Y R) := by
  rw [val_main_v105_apply, v71_row, v104_row, val_main_call0_v1_apply, val_main_call0_v0_apply, val_main_cst_16_apply]
  unfold ratioTerm
  generalize ratio (rowOf X R) (rowOf Y R) = r
  rw [xori_one_eq_not]
  rcases BitVec.eq_zero_or_eq_one (miss (rowOf X R) (rowOf Y R)) with h | h <;> rw [h]
  · rw [show ~~~(0#1 : BitVec 1) = 1#1 from by decide, select_one, bitF_one, mul_one]
  · rw [show ~~~(1#1 : BitVec 1) = 0#1 from by decide, select_zero, bitF_zero, mul_zero]
    exact zero_eq

end Rows

/-! ## The four totals -/

section Totals
variable (X Y : Arr)

/-- The float sum over both axes is the sum of the masked squares. -/
theorem v82_eq (i : S_.Idx) : val_main_v82 (F := Ideal) X Y i = sqSum X Y := by
  rw [val_main_v82_apply, val_main_cst_12_apply]
  show zero + _ = _
  rw [zero_eq, zero_add, sum_idx2]
  exact Finset.sum_congr rfl fun R _ => Finset.sum_congr rfl fun k _ => v81_at X Y R k

/-- The float sum of the selected ratios is the sum of the hit rows' ratios. -/
theorem v106_eq (i : S_.Idx) : val_main_v106 (F := Ideal) X Y i = ratioSum X Y := by
  rw [val_main_v106_apply, val_main_cst_17_apply]
  show zero + _ = _
  rw [zero_eq, zero_add, sum_idx1]
  exact Finset.sum_congr rfl fun R _ => v105_row X Y R

/-- An integer sum, from 0, of one-bit words widened to 32 bits is the number of ones as a word. -/
theorem reduce_count (b : S8000000.Idx → BitVec 1) (h : S8000000.ReducesTo [0] S_) (hu : 0 < S_.numel) (i : S_.Idx) :
    Host.reduce IntOp.addi (fun j => (b j).setWidth 32) (fun _ : S_.Idx => 0#32) h hu i
      = BitVec.ofNat 32 (∑ j, (b j).toNat) := by
  rw [Host.reduce_eq_fold, Finset.filter_true_of_mem (fun j _ => funext fun a => a.elim0)]
  exact fold_addi_bits Finset.univ b

/-- The number of rows that miss, and of rows that hit. -/
def nMiss : ℕ := ∑ j : S8000000.Idx, (val_main_v70 (F := Ideal) X Y j).toNat
def nHit : ℕ := ∑ j : S8000000.Idx, (val_main_v71 (F := Ideal) X Y j).toNat

theorem nMiss_le : nMiss X Y ≤ 8000000 := (sum_bits_le Finset.univ _).trans (le_of_eq card_rows)
theorem nHit_le : nHit X Y ≤ 8000000 := (sum_bits_le Finset.univ _).trans (le_of_eq card_rows)

theorem v73_eq (i : S_.Idx) : val_main_v73 (F := Ideal) X Y i = BitVec.ofNat 32 (nMiss X Y) :=
  reduce_count (val_main_v70 (F := Ideal) X Y) _ _ i

theorem v75_eq (i : S_.Idx) : val_main_v75 (F := Ideal) X Y i = BitVec.ofNat 32 (nHit X Y) :=
  reduce_count (val_main_v71 (F := Ideal) X Y) _ _ i

/-- The specification's float count of misses is that number. -/
theorem missSum_eq : missSum X Y = ((nMiss X Y : ℝ) : EReal) := by
  unfold missSum nMiss
  rw [← sum_bitF Finset.univ (val_main_v70 (F := Ideal) X Y),
    sum_idx1 (fun j => bitF (val_main_v70 (F := Ideal) X Y j))]
  exact Finset.sum_congr rfl fun R _ => (congrArg bitF (v70_row X Y R)).symm

theorem hitSum_eq : hitSum X Y = ((nHit X Y : ℝ) : EReal) := by
  unfold hitSum nHit
  rw [← sum_bitF Finset.univ (val_main_v71 (F := Ideal) X Y),
    sum_idx1 (fun j => bitF (val_main_v71 (F := Ideal) X Y j))]
  exact Finset.sum_congr rfl fun R _ => (congrArg bitF (v71_row X Y R)).symm

end Totals

/-! ## The scalar tail -/

section Tail
variable (X Y : Arr) (i : S_.Idx)

theorem v85_eq : val_main_v85 (F := Ideal) X Y i = max (missSum X Y * four) one := by
  rw [val_main_v85_apply, val_main_v84_apply, val_main_v83_apply, val_main_c_13_apply, val_main_c_14_apply, v73_eq,
    missSum_eq]
  exact sitofp_max4_ofNat _ (nMiss_le X Y)

theorem v86_eq : val_main_v86 (F := Ideal) X Y i = Ideal.div (sqSum X Y) (max (missSum X Y * four) one) := by
  rw [val_main_v86_apply, v82_eq, v85_eq]
  rfl

theorem v108_eq : val_main_v108 (F := Ideal) X Y i = max (hitSum X Y) one := by
  rw [val_main_v108_apply, val_main_v107_apply, val_main_c_18_apply, v75_eq, hitSum_eq]
  exact sitofp_max1_ofNat _ (nHit_le X Y)

theorem v109_eq : val_main_v109 (F := Ideal) X Y i = Ideal.div (ratioSum X Y) (max (hitSum X Y) one) := by
  rw [val_main_v109_apply, v106_eq, v108_eq]
  rfl

theorem v110_eq : val_main_v110 (F := Ideal) X Y i = FloatOps.cmpf (F := Ideal) (φ := .f32) .ogt (missSum X Y) zero := by
  rw [val_main_v110_apply, val_main_c_19_apply, v73_eq, missSum_eq]
  exact cmpi_sgt_zero_ofNat _ (nMiss_le X Y)

theorem v114_eq : val_main_v114 (F := Ideal) X Y i = FloatOps.cmpf (F := Ideal) (φ := .f32) .ogt (hitSum X Y) zero := by
  rw [val_main_v114_apply, val_main_c_21_apply, v75_eq, hitSum_eq]
  exact cmpi_sgt_zero_ofNat _ (nHit_le X Y)

end Tail

/-- The reference's result, as a function of its two arguments, is the loss. -/
theorem ref_loss (X Y : (⟨2, ![8000000, 4]⟩ : Shape).Idx → EReal) :
    val_main_v116 (F := Ideal) X Y = fun _ => Cert.BoxLoss.loss X Y := by
  funext i
  rw [val_main_v116_apply, val_main_v113_apply, val_main_v115_apply, val_main_v112_apply, val_main_v111_apply,
    val_main_call1_v0_apply, val_main_cst_20_apply, v114_eq, v110_eq, v109_eq, v86_eq]
  rfl

end Cert.ReferenceIdeal.RefValue

end
-- ==== Proof.RefLoss.lean ====
/-
  The reference's run ends at the loss.

  Read stage by stage, the reference's line of host operations leaves in its result buffer the last stage as a
  function of the two argument arrays, and leaves the arguments as they were. Over the extended reals that last stage
  is, at its one index, the box loss of the two arrays. Together: from any memory with zero counters every weakly fair
  execution of the reference terminates with the result buffer at the loss of the arguments, the arguments unchanged.
-/
import proofs.«174585_j15187004359196_1_alg».proof.Proof.RefRunValue
import proofs.«174585_j15187004359196_1_alg».proof.Proof.RefSide

noncomputable section

namespace Cert.ReferenceIdeal.RefValue

open Cert.ReferenceIdeal Idealize.ShloMosaic Idealize.ShloMosaic.TcCoe Idealize.SL.Sem

/-- The reference's run over the extended reals: the result buffer ends at the loss of the two argument arrays as the
    memory held them at the start, and both arrays end as they began. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v116)
          = (fun _ => Cert.BoxLoss.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono
    (fun _ h c => ⟨(h c).1.trans (ref_loss (m ((c.tc : Thread nD τ).loc main_arg0)) (m ((c.tc : Thread nD τ).loc main_arg1))),
      (h c).2⟩)
    (Cert.ReferenceIdeal.RunValue.run (F := Ideal) m ρ)

end Cert.ReferenceIdeal.RefValue

end
-- ==== Proof.lean ====
/-
  One loss of N = 8000000 pairs of boxes, computed two ways, and why the two agree.

  A row of the predicted array X and the same row of the target array Y are two boxes (cx, cy, w, h). From a pair of
  rows both programs form the overlap box of the target's corners and the prediction's corners clipped to [0, 1]; the
  pair MISSES when that box is empty along an axis and HITS otherwise. Over all rows four totals are taken — the
  squared coordinate differences of the rows that miss, the number of rows that miss, the ratio
  overlap / (area + area - overlap + eps) of the rows that hit, the number of rows that hit — and the loss is
      (hit ratios) / max(hits, 1) - [misses > 0] (miss squares) / max(4 misses, 1)      when hits > 0,
                                  - (miss squares) / max(4 misses, 1)                   otherwise
  (Spec.lean: `Cert.BoxLoss.sums`, `tail`, `loss`), all over the extended reals, the constants kept as the words the
  programs print.

  The reference takes the four totals over all the rows at once and then forms the loss from them
  (Proof/RefRunValue.lean reads its line of operations stage by stage, Proof/RefSide.lean shows the last stage is
  `loss X Y`, Proof/RefLoss.lean puts the two together: its result buffer ends at `loss X Y`).

  The kernel cuts the rows into 40 consecutive blocks of 200000. At each block it forms the block's four partial sums
  and adds them to a 1 × 4 accumulator that the first block starts from the zero word; a sum over finitely many rows
  is the sum over the blocks of the blocks' sums, by commutativity and associativity of addition alone, so after the
  last block the accumulator's entry q is total q (Proof/KAcc.lean: `result_entry`). The lines after the grid take the
  four entries out as scalars and form the same function of them (Proof/KTail.lean: `run_of_final`). So the kernel's
  result buffer ends at `tail` of the four totals, which is `loss X Y` by definition.

  Both runs leave the two argument arrays as they were; from memories that agree on the arguments the two result
  buffers therefore hold one and the same extended real. The claim relating the kernel as printed to its reading over
  the extended reals is stated as `True` (Defs.lean records that no operation was rewritten between the two texts), so
  it needs no argument here.
-/
import proofs.«174585_j15187004359196_1_alg».proof.Defs
import proofs.«174585_j15187004359196_1_alg».proof.Proof.Gen.Kernel.Frame
import proofs.«174585_j15187004359196_1_alg».proof.Proof.Gen.KernelIdeal.Frame
import proofs.«174585_j15187004359196_1_alg».proof.Proof.Gen.ReferenceIdeal
import proofs.«174585_j15187004359196_1_alg».proof.Proof.Gen.Pre_finite_inputs
import proofs.«174585_j15187004359196_1_alg».proof.Proof.Spec
import proofs.«174585_j15187004359196_1_alg».proof.Proof.KTail
import proofs.«174585_j15187004359196_1_alg».proof.Proof.KAcc
import proofs.«174585_j15187004359196_1_alg».proof.Proof.RefLoss

noncomputable section

open Idealize.ShloMosaic Idealize.ShloMosaic.TcCoe Idealize.SL.Sem Idealize.ShloMosaic.ValueIdx

namespace Cert.Proof

/-! ## The kernel's run, read as the loss -/

/-- The vector of the four totals read entry by entry. -/
theorem sums_zero {N : ℕ} (X Y : (⟨2, ![N, 4]⟩ : Shape).Idx → EReal) :
    Cert.BoxLoss.sums X Y 0 = Cert.BoxLoss.sqSum X Y := by
  unfold Cert.BoxLoss.sums; rw [Matrix.cons_val_zero]
theorem sums_one {N : ℕ} (X Y : (⟨2, ![N, 4]⟩ : Shape).Idx → EReal) :
    Cert.BoxLoss.sums X Y 1 = Cert.BoxLoss.missSum X Y := by
  unfold Cert.BoxLoss.sums; rw [Matrix.cons_val_one, Matrix.cons_val_zero]
theorem sums_two {N : ℕ} (X Y : (⟨2, ![N, 4]⟩ : Shape).Idx → EReal) :
    Cert.BoxLoss.sums X Y 2 = Cert.BoxLoss.ratioSum X Y := by
  unfold Cert.BoxLoss.sums; rw [Matrix.cons_val_two, Matrix.tail_cons, Matrix.head_cons]
theorem sums_three {N : ℕ} (X Y : (⟨2, ![N, 4]⟩ : Shape).Idx → EReal) :
    Cert.BoxLoss.sums X Y 3 = Cert.BoxLoss.hitSum X Y := by
  unfold Cert.BoxLoss.sums
  rw [show (3 : Fin 4) = Fin.succ (Fin.succ (Fin.succ 0)) from rfl, Matrix.cons_val_succ, Matrix.cons_val_succ,
    Matrix.cons_val_succ, Matrix.cons_val_zero]

/-- The loss is `tail` of the four totals. -/
theorem tail_sums (X Y : (⟨2, ![8000000, 4]⟩ : Shape).Idx → EReal) :
    Cert.BoxLoss.tail (Cert.BoxLoss.sums X Y 0) (Cert.BoxLoss.sums X Y 1) (Cert.BoxLoss.sums X Y 2) (Cert.BoxLoss.sums X Y 3)
      = Cert.BoxLoss.loss X Y := by
  rw [sums_zero, sums_one, sums_two, sums_three, Cert.BoxLoss.loss]

/-- Over the extended reals the kernel terminates from any memory with zero counters, its result buffer at the loss of
    the two argument arrays and the arguments as they were: after the grid the output array's four entries are the
    four totals, and the lines after the grid form `tail` of the four entries, which of the totals is the loss. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
            = (fun _ => Cert.BoxLoss.loss
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run (Cert.KernelIdeal.defs (F := Ideal)) _ _).mono (fun _ h c => ⟨(h c).1.trans (funext fun _ => by
      rw [Cert.KernelIdeal.Acc.result_entry m c 0, Cert.KernelIdeal.Acc.result_entry m c 1,
        Cert.KernelIdeal.Acc.result_entry m c 2, Cert.KernelIdeal.Acc.result_entry m c 3]
      exact tail_sums _ _), (h c).2⟩)
    (Cert.KernelIdeal.Tail.run_of_final m ρ (Cert.KernelIdeal.Acc.result m) (Cert.KernelIdeal.Acc.final_out m))

/-! ## The claims -/

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run with the result buffer's contents forgotten. -/
theorem frame_ri : Cert.frame_ReferenceIdeal := fun m ρ _ =>
  (θ_run (Cert.ReferenceIdeal.defs (F := Ideal)) _ _).mono (fun _ h c => (h c).2) (Cert.ReferenceIdeal.RefValue.run m ρ)

/-- The claim relating the printed kernel to its reading over the extended reals is stated as `True`. -/
theorem preserves : Cert.preserves_Kernel_KernelIdeal := trivial

/-- From memories that agree on the two arguments both programs run, both leave the arguments as they were, and both
    result buffers end at the loss of the kernel's arguments: the kernel's by `kernel_run`, the reference's at the loss of
    its own arguments, which are the kernel's. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
